-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x10 .f32) (main_arg12 : FVec F S10 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg11
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x10 .f32) (main_arg12 : FVec F S10 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x128 .f32) (main_arg6 : FVec F S128 .f32) (main_arg7 : FVec F S128x128 .f32) (main_arg8 : FVec F S128 .f32) (main_arg9 : FVec F S128x64 .f32) (main_arg10 : FVec F S64 .f32) (main_arg11 : FVec F S64x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x10 : Shape := ⟨2, ![1, 10]⟩
abbrev S512x10 : Shape := ⟨2, ![512, 10]⟩
abbrev S512x64 : Shape := ⟨2, ![512, 64]⟩

abbrev nBuf : Space → Nat
  | .hbm => 128
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x10, .f32⟩
  | .hbm, ⟨12, _⟩ => ⟨S10, .f32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S100000, .i32⟩
  | .hbm, ⟨20, _⟩ => ⟨S1700000, .i32⟩
  | .hbm, ⟨21, _⟩ => ⟨S_, .f32⟩
  | .hbm, ⟨22, _⟩ => ⟨S1700000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x64, .f32⟩
  | .hbm, ⟨55, _⟩ => ⟨S1700000x1, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x128, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S1700000x1, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x128, .f32⟩
  | .hbm, ⟨101, _⟩ => ⟨S1700000x128, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S_, .f32⟩
  | .hbm, ⟨110, _⟩ => ⟨S512x128, .f32⟩
  | .hbm, ⟨111, _⟩ => ⟨S100000x1, .i32⟩
  | .hbm, ⟨112, _⟩ => ⟨S512x128, .f32⟩
  | .hbm, ⟨113, _⟩ => ⟨S_, .f32⟩
  | .hbm, ⟨114, _⟩ => ⟨S100000, .f32⟩
  | .hbm, ⟨115, _⟩ => ⟨S_, .f32⟩
  | .hbm, ⟨116, _⟩ => ⟨S512, .f32⟩
  | .hbm, ⟨117, _⟩ => ⟨S100000x1, .i32⟩
  | .hbm, ⟨118, _⟩ => ⟨S512, .f32⟩
  | .hbm, ⟨119, _⟩ => ⟨S_, .f32⟩
  | .hbm, ⟨120, _⟩ => ⟨S512, .f32⟩
  | .hbm, ⟨121, _⟩ => ⟨S512, .f32⟩
  | .hbm, ⟨122, _⟩ => ⟨S512x1, .f32⟩
  | .hbm, ⟨123, _⟩ => ⟨S512x128, .f32⟩
  | .hbm, ⟨124, _⟩ => ⟨S512x128, .f32⟩
  | .hbm, ⟨125, _⟩ => ⟨S1x64, .f32⟩
  | .hbm, ⟨126, _⟩ => ⟨S1x10, .f32⟩
  | .hbm, ⟨127, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S512x128, .f32⟩
  | .local _ .vmem, ⟨23, _⟩ => ⟨S128x64, .f32⟩
  | .local _ .vmem, ⟨24, _⟩ => ⟨S1x64, .f32⟩
  | .local _ .vmem, ⟨25, _⟩ => ⟨S64x10, .f32⟩
  | .local _ .vmem, ⟨26, _⟩ => ⟨S1x10, .f32⟩
  | .local _ .vmem, ⟨27, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem5_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x64_S512x64 : S1x64.Broadcasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x10.size a ≤ S512x10.size a
  hwx4_5 : ∀ i : grid4.Coords, EltTy.bits .f32 = 32 ∨ (Rect.block (s := S512x10) S512x10.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v88) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v89) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S64x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S512x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x64 : Shape := ⟨2, ![512, 64]⟩
abbrev S512x10 : Shape := ⟨2, ![512, 10]⟩
abbrev S1x10 : Shape := ⟨2, ![1, 10]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x10, .f32⟩
  | 12 => ⟨S10, .f32⟩
  | 13 => ⟨S1x1600000, .i32⟩
  | 14 => ⟨S1600000, .i32⟩
  | 15 => ⟨S100000, .i32⟩
  | 16 => ⟨S1700000, .i32⟩
  | 17 => ⟨S1x1600000, .i32⟩
  | 18 => ⟨S1600000, .i32⟩
  | 19 => ⟨S100000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x64, .f32⟩
  | 55 => ⟨S1700000x1, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x128, .f32⟩
  | 78 => ⟨S1700000x1, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S1700000x1, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S_, .f32⟩
  | 124 => ⟨S512x128, .f32⟩
  | 125 => ⟨S100000x1, .i32⟩
  | 126 => ⟨S512x128, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S512, .f32⟩
  | 3 => ⟨S100000x1, .i32⟩
  | 4 => ⟨S512, .f32⟩
  | 5 => ⟨S_, .f32⟩
  | 6 => ⟨S512, .f32⟩
  | 7 => ⟨S512, .f32⟩
  | 8 => ⟨S512x1, .f32⟩
  | 9 => ⟨S512x128, .f32⟩
  | 10 => ⟨S512x128, .f32⟩
  | 11 => ⟨S512x64, .f32⟩
  | 12 => ⟨S1x64, .f32⟩
  | 13 => ⟨S512x64, .f32⟩
  | 14 => ⟨S512x64, .f32⟩
  | 15 => ⟨S_, .f32⟩
  | 16 => ⟨S512x64, .f32⟩
  | 17 => ⟨S512x64, .f32⟩
  | 18 => ⟨S512x10, .f32⟩
  | 19 => ⟨S1x10, .f32⟩
  | 20 => ⟨S512x10, .f32⟩
  | 21 => ⟨S512x10, .f32⟩
  | 22 => ⟨S_, .f32⟩
  | 23 => ⟨S512, .f32⟩
  | 24 => ⟨S_, .f32⟩
  | 25 => ⟨S512, .f32⟩
  | 26 => ⟨S512, .f32⟩
  | 27 => ⟨S512x1, .f32⟩
  | 28 => ⟨S512x10, .f32⟩
  | 29 => ⟨S512x10, .f32⟩
  | 30 => ⟨S512x10, .f32⟩
  | 31 => ⟨S_, .f32⟩
  | 32 => ⟨S512, .f32⟩
  | 33 => ⟨S512x1, .f32⟩
  | 34 => ⟨S512x1, .f32⟩
  | 35 => ⟨S512x10, .f32⟩
  | 36 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_cst : Ref sig .tc := ⟨.hbm, 74, rfl⟩
abbrev main_call1_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_cst : Ref sig .tc := ⟨.hbm, 97, rfl⟩
abbrev main_call2_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_12 : Ref sig .tc := ⟨.hbm, 102, rfl⟩
abbrev main_v69 : Ref sig .tc := ⟨.hbm, 103, rfl⟩
abbrev main_v70 : Ref sig .tc := ⟨.hbm, 104, rfl⟩
abbrev main_c_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_14 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call3_cst : Ref sig .tc := ⟨.hbm, 120, rfl⟩
abbrev main_call3_v0 : Ref sig .tc := ⟨.hbm, 121, rfl⟩
abbrev main_v84 : Ref sig .tc := ⟨.hbm, 122, rfl⟩
abbrev main_cst_15 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_cst_17 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_18 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call4_cst : Ref sig .tc := ⟨.hbm, 143, rfl⟩
abbrev main_call4_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_call5_cst : Ref sig .tc := ⟨.hbm, 150, rfl⟩
abbrev main_call5_v0 : Ref sig .tc := ⟨.hbm, 151, rfl⟩
abbrev main_call5_cst_0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_call5_v5 : Ref sig .tc := ⟨.hbm, 157, rfl⟩
abbrev main_call5_v6 : Ref sig .tc := ⟨.hbm, 158, rfl⟩
abbrev main_call5_cst_1 : Ref sig .tc := ⟨.hbm, 159, rfl⟩
abbrev main_call5_v7 : Ref sig .tc := ⟨.hbm, 160, rfl⟩
abbrev main_call5_v8 : Ref sig .tc := ⟨.hbm, 161, rfl⟩
abbrev main_call5_v9 : Ref sig .tc := ⟨.hbm, 162, rfl⟩
abbrev main_call5_v10 : Ref sig .tc := ⟨.hbm, 163, rfl⟩
abbrev main_v106 : Ref sig .tc := ⟨.hbm, 164, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []
  dot_S512x64_S64x10_S512x10_1_0_0_1_n_n_wf : DotDims.WF S512x64 S64x10 S512x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KernelRun.lean ====
/-
  The idealized kernel's run with its result named.

  @main of the kernel's program is five tiled regions among stretches of host operations. The generated frame proves
  that every weakly fair execution terminates and, on the way, holds every unscoped buffer of a core at the contents of
  the last segment boundary (the fold `Gen.W12`). Its statement keeps only the argument arrays; here the same launch is
  read once more at the result buffer as well: the result array ends at `Gen.W12 m ρ c` read at `main_v91`.
-/
import proofs.«138659_j53807350284438_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result array at the last boundary's contents and the
    arguments as launched. -/
theorem run_result : θ_run defs (onTc (τ := τ) (main (F := F))) ⟨m, fun _ => 0, ρ⟩ (fun r => ∀ c : Dev nD,
      r.2.mem ((c.tc : Thread nD τ).loc main_v91) = W12 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v91 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.RunValue

end
-- ==== Proof.ChainCarry.lean ====
/-
  Buffers that pass through the kernel's program unchanged.

  @main of the kernel's program alternates stretches of host operations with tiled regions; the contents of a core's
  buffers at each boundary are the fold `Gen.W0`, …, `Gen.W12`. A stretch changes only the buffers its operations write
  and a region only its output array, so an argument array holds its launch contents at every boundary, and the three
  arrays every aggregation reads — the source indices, the destination indices and the edge weights, computed before the
  first region — hold at every later boundary what they held at the first region's entry. Generic in the float family.
-/
import proofs.«138659_j53807350284438_1_alg».proof.Proof.Gen.KernelIdeal.Frame

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg) (c : Dev nD)

/-- The buffers `hostOps0` writes. -/
abbrev wl0 : List (Ref sig .tc) := [main_v0, main_v1, main_v2, main_v3, main_v4, main_v5, main_v6, main_v7, main_cst, main_v8, main_cst_0, main_v9, main_v10, main_v11, main_cst_1, main_v12, main_v13, main_v14, main_cst_2]
theorem hW_wl0 : (hostOps0 : List (HloOp τ sig (Elt F))).Forall fun op => op.writes ⊆ (wl0.map (Proc.devRef (τ := τ) .tc)).toFinset := by
  simp only [hostOps0, List.Forall, nullary_writes, unary_writes, binary_writes, ternary_writes, reshape_writes,
    Finset.singleton_subset_iff, List.mem_toFinset]
  repeat' apply And.intro
  all_goals exact List.mem_map.mpr ⟨_, by decide, rfl⟩
/-- A buffer `hostOps0` does not write keeps its contents across it. -/
theorem hop1 (b : Ref sig .tc) (hb : b ∉ wl0) : W1 m ρ c (Proc.devRef .tc b) = W0 m ρ c (Proc.devRef .tc b) :=
  after_of_writes_sub hostOps0 (W0 m ρ c) hW_wl0 hb

/-- The buffers `hostOps0_1` writes. -/
abbrev wl0_1 : List (Ref sig .tc) := [main_call0_v0, main_call0_v1, main_v15]
theorem hW_wl0_1 : (hostOps0_1 : List (HloOp τ sig (Elt F))).Forall fun op => op.writes ⊆ (wl0_1.map (Proc.devRef (τ := τ) .tc)).toFinset := by
  simp only [hostOps0_1, List.Forall, nullary_writes, unary_writes, binary_writes, ternary_writes, reshape_writes,
    Finset.singleton_subset_iff, List.mem_toFinset]
  repeat' apply And.intro
  all_goals exact List.mem_map.mpr ⟨_, by decide, rfl⟩
/-- A buffer `hostOps0_1` does not write keeps its contents across it. -/
theorem hop2 (b : Ref sig .tc) (hb : b ∉ wl0_1) : W2 m ρ c (Proc.devRef .tc b) = W1 m ρ c (Proc.devRef .tc b) :=
  after_of_writes_sub hostOps0_1 (W1 m ρ c) hW_wl0_1 hb

/-- The buffers `hostOps0_2` writes. -/
abbrev wl0_2 : List (Ref sig .tc) := [main_c, main_v16, main_v17, main_c_3, main_v18, main_v19, main_v20, main_v21, main_v22, main_c_4, main_v23, main_v24, main_c_5, main_v25, main_v26, main_v27, main_v28, main_v29, main_v30]
theorem hW_wl0_2 : (hostOps0_2 : List (HloOp τ sig (Elt F))).Forall fun op => op.writes ⊆ (wl0_2.map (Proc.devRef (τ := τ) .tc)).toFinset := by
  simp only [hostOps0_2, List.Forall, nullary_writes, unary_writes, binary_writes, ternary_writes, reshape_writes,
    Finset.singleton_subset_iff, List.mem_toFinset]
  repeat' apply And.intro
  all_goals exact List.mem_map.mpr ⟨_, by decide, rfl⟩
/-- A buffer `hostOps0_2` does not write keeps its contents across it. -/
theorem hop3 (b : Ref sig .tc) (hb : b ∉ wl0_2) : W3 m ρ c (Proc.devRef .tc b) = W2 m ρ c (Proc.devRef .tc b) :=
  after_of_writes_sub hostOps0_2 (W2 m ρ c) hW_wl0_2 hb

/-- The buffers `hostOps1` writes. -/
abbrev wl1 : List (Ref sig .tc) := [main_v32, main_c_6, main_v33, main_v34, main_c_7, main_v35, main_v36, main_v37, main_v38, main_v39, main_v40, main_v41, main_cst_8, main_v42, main_v43, main_v44, main_v45]
theorem hW_wl1 : (hostOps1 : List (HloOp τ sig (Elt F))).Forall fun op => op.writes ⊆ (wl1.map (Proc.devRef (τ := τ) .tc)).toFinset := by
  simp only [hostOps1, List.Forall, nullary_writes, unary_writes, binary_writes, ternary_writes, reshape_writes,
    Finset.singleton_subset_iff, List.mem_toFinset]
  repeat' apply And.intro
  all_goals exact List.mem_map.mpr ⟨_, by decide, rfl⟩
/-- A buffer `hostOps1` does not write keeps its contents across it. -/
theorem hop5 (b : Ref sig .tc) (hb : b ∉ wl1) : W5 m ρ c (Proc.devRef .tc b) = W4 m ρ c (Proc.devRef .tc b) :=
  after_of_writes_sub hostOps1 (W4 m ρ c) hW_wl1 hb

/-- The buffers `hostOps2` writes. -/
abbrev wl2 : List (Ref sig .tc) := [main_v47, main_c_9, main_v48, main_v49, main_c_10, main_v50, main_v51, main_v52, main_v53, main_v54, main_v55, main_v56, main_cst_11, main_v57, main_v58, main_v59, main_v60]
theorem hW_wl2 : (hostOps2 : List (HloOp τ sig (Elt F))).Forall fun op => op.writes ⊆ (wl2.map (Proc.devRef (τ := τ) .tc)).toFinset := by
  simp only [hostOps2, List.Forall, nullary_writes, unary_writes, binary_writes, ternary_writes, reshape_writes,
    Finset.singleton_subset_iff, List.mem_toFinset]
  repeat' apply And.intro
  all_goals exact List.mem_map.mpr ⟨_, by decide, rfl⟩
/-- A buffer `hostOps2` does not write keeps its contents across it. -/
theorem hop7 (b : Ref sig .tc) (hb : b ∉ wl2) : W7 m ρ c (Proc.devRef .tc b) = W6 m ρ c (Proc.devRef .tc b) :=
  after_of_writes_sub hostOps2 (W6 m ρ c) hW_wl2 hb

/-- The buffers `hostOps3` writes. -/
abbrev wl3 : List (Ref sig .tc) := [main_v62, main_c_12, main_v63, main_v64, main_c_13, main_v65, main_v66, main_v67, main_v68, main_v69, main_v70, main_v71, main_cst_14, main_v72, main_v73, main_v74, main_v75]
theorem hW_wl3 : (hostOps3 : List (HloOp τ sig (Elt F))).Forall fun op => op.writes ⊆ (wl3.map (Proc.devRef (τ := τ) .tc)).toFinset := by
  simp only [hostOps3, List.Forall, nullary_writes, unary_writes, binary_writes, ternary_writes, reshape_writes,
    Finset.singleton_subset_iff, List.mem_toFinset]
  repeat' apply And.intro
  all_goals exact List.mem_map.mpr ⟨_, by decide, rfl⟩
/-- A buffer `hostOps3` does not write keeps its contents across it. -/
theorem hop9 (b : Ref sig .tc) (hb : b ∉ wl3) : W9 m ρ c (Proc.devRef .tc b) = W8 m ρ c (Proc.devRef .tc b) :=
  after_of_writes_sub hostOps3 (W8 m ρ c) hW_wl3 hb

/-- The buffers `hostOps4` writes. -/
abbrev wl4 : List (Ref sig .tc) := [main_cst_15, main_v77, main_v78, main_v79, main_cst_16, main_v80, main_cst_17, main_v81, main_v82, main_v83, main_cst_18, main_v84, main_v85, main_v86, main_v87, main_v88, main_v89, main_v90]
theorem hW_wl4 : (hostOps4 : List (HloOp τ sig (Elt F))).Forall fun op => op.writes ⊆ (wl4.map (Proc.devRef (τ := τ) .tc)).toFinset := by
  simp only [hostOps4, List.Forall, nullary_writes, unary_writes, binary_writes, ternary_writes, reshape_writes,
    Finset.singleton_subset_iff, List.mem_toFinset]
  repeat' apply And.intro
  all_goals exact List.mem_map.mpr ⟨_, by decide, rfl⟩
/-- A buffer `hostOps4` does not write keeps its contents across it. -/
theorem hop11 (b : Ref sig .tc) (hb : b ∉ wl4) : W11 m ρ c (Proc.devRef .tc b) = W10 m ρ c (Proc.devRef .tc b) :=
  after_of_writes_sub hostOps4 (W10 m ρ c) hW_wl4 hb

/-! ## The argument arrays at the boundaries where they are read -/

theorem arg0_3 : W3 m ρ c (Proc.devRef .tc main_arg0) = m ((c.tc : Thread nD τ).loc main_arg0) :=
  ((hop3 m ρ c main_arg0 (by decide)).trans ((hop2 m ρ c main_arg0 (by decide)).trans ((hop1 m ρ c main_arg0 (by decide))))).trans rfl
theorem arg3_3 : W3 m ρ c (Proc.devRef .tc main_arg3) = m ((c.tc : Thread nD τ).loc main_arg3) :=
  ((hop3 m ρ c main_arg3 (by decide)).trans ((hop2 m ρ c main_arg3 (by decide)).trans ((hop1 m ρ c main_arg3 (by decide))))).trans rfl
theorem arg4_4 : W4 m ρ c (Proc.devRef .tc main_arg4) = m ((c.tc : Thread nD τ).loc main_arg4) :=
  ((W4_of_ne m ρ c main_arg4 (by decide)).trans ((hop3 m ρ c main_arg4 (by decide)).trans ((hop2 m ρ c main_arg4 (by decide)).trans ((hop1 m ρ c main_arg4 (by decide)))))).trans rfl
theorem arg5_5 : W5 m ρ c (Proc.devRef .tc main_arg5) = m ((c.tc : Thread nD τ).loc main_arg5) :=
  ((hop5 m ρ c main_arg5 (by decide)).trans ((W4_of_ne m ρ c main_arg5 (by decide)).trans ((hop3 m ρ c main_arg5 (by decide)).trans ((hop2 m ρ c main_arg5 (by decide)).trans ((hop1 m ρ c main_arg5 (by decide))))))).trans rfl
theorem arg6_6 : W6 m ρ c (Proc.devRef .tc main_arg6) = m ((c.tc : Thread nD τ).loc main_arg6) :=
  ((W6_of_ne m ρ c main_arg6 (by decide)).trans ((hop5 m ρ c main_arg6 (by decide)).trans ((W4_of_ne m ρ c main_arg6 (by decide)).trans ((hop3 m ρ c main_arg6 (by decide)).trans ((hop2 m ρ c main_arg6 (by decide)).trans ((hop1 m ρ c main_arg6 (by decide)))))))).trans rfl
theorem arg7_7 : W7 m ρ c (Proc.devRef .tc main_arg7) = m ((c.tc : Thread nD τ).loc main_arg7) :=
  ((hop7 m ρ c main_arg7 (by decide)).trans ((W6_of_ne m ρ c main_arg7 (by decide)).trans ((hop5 m ρ c main_arg7 (by decide)).trans ((W4_of_ne m ρ c main_arg7 (by decide)).trans ((hop3 m ρ c main_arg7 (by decide)).trans ((hop2 m ρ c main_arg7 (by decide)).trans ((hop1 m ρ c main_arg7 (by decide))))))))).trans rfl
theorem arg8_8 : W8 m ρ c (Proc.devRef .tc main_arg8) = m ((c.tc : Thread nD τ).loc main_arg8) :=
  ((W8_of_ne m ρ c main_arg8 (by decide)).trans ((hop7 m ρ c main_arg8 (by decide)).trans ((W6_of_ne m ρ c main_arg8 (by decide)).trans ((hop5 m ρ c main_arg8 (by decide)).trans ((W4_of_ne m ρ c main_arg8 (by decide)).trans ((hop3 m ρ c main_arg8 (by decide)).trans ((hop2 m ρ c main_arg8 (by decide)).trans ((hop1 m ρ c main_arg8 (by decide)))))))))).trans rfl
theorem arg2_10 : W10 m ρ c (Proc.devRef .tc main_arg2) = m ((c.tc : Thread nD τ).loc main_arg2) :=
  ((W10_of_ne m ρ c main_arg2 (by decide)).trans ((hop9 m ρ c main_arg2 (by decide)).trans ((W8_of_ne m ρ c main_arg2 (by decide)).trans ((hop7 m ρ c main_arg2 (by decide)).trans ((W6_of_ne m ρ c main_arg2 (by decide)).trans ((hop5 m ρ c main_arg2 (by decide)).trans ((W4_of_ne m ρ c main_arg2 (by decide)).trans ((hop3 m ρ c main_arg2 (by decide)).trans ((hop2 m ρ c main_arg2 (by decide)).trans ((hop1 m ρ c main_arg2 (by decide)))))))))))).trans rfl
theorem arg10_10 : W10 m ρ c (Proc.devRef .tc main_arg10) = m ((c.tc : Thread nD τ).loc main_arg10) :=
  ((W10_of_ne m ρ c main_arg10 (by decide)).trans ((hop9 m ρ c main_arg10 (by decide)).trans ((W8_of_ne m ρ c main_arg10 (by decide)).trans ((hop7 m ρ c main_arg10 (by decide)).trans ((W6_of_ne m ρ c main_arg10 (by decide)).trans ((hop5 m ρ c main_arg10 (by decide)).trans ((W4_of_ne m ρ c main_arg10 (by decide)).trans ((hop3 m ρ c main_arg10 (by decide)).trans ((hop2 m ρ c main_arg10 (by decide)).trans ((hop1 m ρ c main_arg10 (by decide)))))))))))).trans rfl
theorem arg12_10 : W10 m ρ c (Proc.devRef .tc main_arg12) = m ((c.tc : Thread nD τ).loc main_arg12) :=
  ((W10_of_ne m ρ c main_arg12 (by decide)).trans ((hop9 m ρ c main_arg12 (by decide)).trans ((W8_of_ne m ρ c main_arg12 (by decide)).trans ((hop7 m ρ c main_arg12 (by decide)).trans ((W6_of_ne m ρ c main_arg12 (by decide)).trans ((hop5 m ρ c main_arg12 (by decide)).trans ((W4_of_ne m ρ c main_arg12 (by decide)).trans ((hop3 m ρ c main_arg12 (by decide)).trans ((hop2 m ρ c main_arg12 (by decide)).trans ((hop1 m ρ c main_arg12 (by decide)))))))))))).trans rfl
theorem arg9_11 : W11 m ρ c (Proc.devRef .tc main_arg9) = m ((c.tc : Thread nD τ).loc main_arg9) :=
  ((hop11 m ρ c main_arg9 (by decide)).trans ((W10_of_ne m ρ c main_arg9 (by decide)).trans ((hop9 m ρ c main_arg9 (by decide)).trans ((W8_of_ne m ρ c main_arg9 (by decide)).trans ((hop7 m ρ c main_arg9 (by decide)).trans ((W6_of_ne m ρ c main_arg9 (by decide)).trans ((hop5 m ρ c main_arg9 (by decide)).trans ((W4_of_ne m ρ c main_arg9 (by decide)).trans ((hop3 m ρ c main_arg9 (by decide)).trans ((hop2 m ρ c main_arg9 (by decide)).trans ((hop1 m ρ c main_arg9 (by decide))))))))))))).trans rfl
theorem arg11_11 : W11 m ρ c (Proc.devRef .tc main_arg11) = m ((c.tc : Thread nD τ).loc main_arg11) :=
  ((hop11 m ρ c main_arg11 (by decide)).trans ((W10_of_ne m ρ c main_arg11 (by decide)).trans ((hop9 m ρ c main_arg11 (by decide)).trans ((W8_of_ne m ρ c main_arg11 (by decide)).trans ((hop7 m ρ c main_arg11 (by decide)).trans ((W6_of_ne m ρ c main_arg11 (by decide)).trans ((hop5 m ρ c main_arg11 (by decide)).trans ((W4_of_ne m ρ c main_arg11 (by decide)).trans ((hop3 m ρ c main_arg11 (by decide)).trans ((hop2 m ρ c main_arg11 (by decide)).trans ((hop1 m ρ c main_arg11 (by decide))))))))))))).trans rfl

/-! ## The index vectors and the edge weights at the later boundaries -/

theorem v3_4 : W4 m ρ c (Proc.devRef .tc main_v3) = W3 m ρ c (Proc.devRef .tc main_v3) :=
  (W4_of_ne m ρ c main_v3 (by decide))
theorem v3_6 : W6 m ρ c (Proc.devRef .tc main_v3) = W3 m ρ c (Proc.devRef .tc main_v3) :=
  (W6_of_ne m ρ c main_v3 (by decide)).trans ((hop5 m ρ c main_v3 (by decide)).trans ((W4_of_ne m ρ c main_v3 (by decide))))
theorem v3_8 : W8 m ρ c (Proc.devRef .tc main_v3) = W3 m ρ c (Proc.devRef .tc main_v3) :=
  (W8_of_ne m ρ c main_v3 (by decide)).trans ((hop7 m ρ c main_v3 (by decide)).trans ((W6_of_ne m ρ c main_v3 (by decide)).trans ((hop5 m ρ c main_v3 (by decide)).trans ((W4_of_ne m ρ c main_v3 (by decide))))))
theorem v7_4 : W4 m ρ c (Proc.devRef .tc main_v7) = W3 m ρ c (Proc.devRef .tc main_v7) :=
  (W4_of_ne m ρ c main_v7 (by decide))
theorem v7_6 : W6 m ρ c (Proc.devRef .tc main_v7) = W3 m ρ c (Proc.devRef .tc main_v7) :=
  (W6_of_ne m ρ c main_v7 (by decide)).trans ((hop5 m ρ c main_v7 (by decide)).trans ((W4_of_ne m ρ c main_v7 (by decide))))
theorem v7_8 : W8 m ρ c (Proc.devRef .tc main_v7) = W3 m ρ c (Proc.devRef .tc main_v7) :=
  (W8_of_ne m ρ c main_v7 (by decide)).trans ((hop7 m ρ c main_v7 (by decide)).trans ((W6_of_ne m ρ c main_v7 (by decide)).trans ((hop5 m ρ c main_v7 (by decide)).trans ((W4_of_ne m ρ c main_v7 (by decide))))))
theorem v30_4 : W4 m ρ c (Proc.devRef .tc main_v30) = W3 m ρ c (Proc.devRef .tc main_v30) :=
  (W4_of_ne m ρ c main_v30 (by decide))
theorem v30_6 : W6 m ρ c (Proc.devRef .tc main_v30) = W3 m ρ c (Proc.devRef .tc main_v30) :=
  (W6_of_ne m ρ c main_v30 (by decide)).trans ((hop5 m ρ c main_v30 (by decide)).trans ((W4_of_ne m ρ c main_v30 (by decide))))
theorem v30_8 : W8 m ρ c (Proc.devRef .tc main_v30) = W3 m ρ c (Proc.devRef .tc main_v30) :=
  (W8_of_ne m ρ c main_v30 (by decide)).trans ((hop7 m ρ c main_v30 (by decide)).trans ((W6_of_ne m ρ c main_v30 (by decide)).trans ((hop5 m ρ c main_v30 (by decide)).trans ((W4_of_ne m ρ c main_v30 (by decide))))))

end Cert.KernelIdeal.Chain

end
-- ==== Proof.LibAfterSplit.lean ====
/-
  A line of host operations run from given buffer contents is a fold over the line; the fold over a line is the fold
  over any tail of it started from the fold over the matching head.
-/
import Idealize.ShloMosaic.Lib.StableHlo.Run

noncomputable section

namespace Cert.AfterSplit

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

theorem after_take_drop (l : List (HloOp τ sig Val)) (k : ℕ) (V : Valuation τ sig Val) :
    after l V = after (l.drop k) (after (l.take k) V) := by
  rw [← after_append, List.take_append_drop]

end Cert.AfterSplit

end
-- ==== Proof.LibTRefRoundTrip.lean ====
/-
  A reusable lemma: a value carried to a buffer's own type and back.

  The operations of an outlined function (a reference's relu, log_softmax, …) name their buffers through typed
  references; a value of the stated type is carried to the buffer's own type when written and carried back when read.
  The two transports are along one equation of buffer types and its reverse, so together they are the identity —
  whatever the reference, and without looking the buffer's type up: substitute the equation.
-/
import Idealize.ShloMosaic.Lib.StableHlo

noncomputable section

namespace Cert.TRefRoundTrip

open Idealize.ShloMosaic Idealize.ShloMosaic.StableHlo

/-- Contents carried to a buffer's own type and back are the contents. -/
theorem ofBuf_toBuf {sg : RefSig} {T : BufTy} {Val : EltTy → Type} (x : TRef sg T) (v : T.Contents Val) :
    x.ofBuf (x.toBuf v) = v := by
  obtain ⟨r, h, h1, h2⟩ := x
  subst h
  rfl

end Cert.TRefRoundTrip

end
-- ==== Proof.ChainA.lean ====
/-
  The graph's normalisation at the first region's entry.

  Before its first region the kernel's program computes, by host operations only, the three arrays every aggregation
  reads: the source indices (the edge list's first row followed by 0 … n−1, the self loops), the destination indices (the
  second row followed by 0 … n−1) and the edge weights dinv[src] · dinv[dst], dinv = where (deg > 0, rsqrt deg, 0), deg the
  scatter-add of ones at the destinations. The reference computes them by the same operations in the same order: at the
  first region's entry the kernel's buffers hold the reference's stages `val_main_v3`, `val_main_v7`, `val_main_v30` of
  the edge list.
-/
import proofs.«138659_j53807350284438_1_alg».proof.Proof.ChainCarry
import proofs.«138659_j53807350284438_1_alg».proof.Proof.ReadP
import proofs.«138659_j53807350284438_1_alg».proof.Proof.LibAfterSplit
import proofs.«138659_j53807350284438_1_alg».proof.Proof.LibTRefRoundTrip
import Idealize.ShloMosaic.Lib.StableHlo.Run
import Idealize.ShloMosaic.Lib.Pipeline.Value

set_option maxRecDepth 16384
set_option quotPrecheck false

noncomputable section

namespace Cert.KernelIdeal.ChainA

open Cert.KernelIdeal Cert.KernelIdeal.Gen Cert.KernelIdeal.Chain Idealize.ShloMosaic Idealize.ShloMosaic.TcCoe
open Idealize.SL.Sem Idealize.ShloMosaic.StableHlo Idealize.ShloMosaic.ValueIdx
open Cert.ReferenceIdeal.ReadP

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)

/-- The source indices at the first region's entry. -/
theorem src_at3 : W3 m ρ c (Proc.devRef .tc main_v3) = val_main_v3 (F := Ideal) x1 := by
  refine (hop3 m ρ c main_v3 (by decide)).trans ((hop2 m ρ c main_v3 (by decide)).trans ?_)
  show StableHlo.after hostOps0 (W0 m ρ c) (Proc.devRef .tc main_v3) = _
  unfold hostOps0
  after_results_simp
  rfl

/-- The destination indices at the first region's entry. -/
theorem dst_at3 : W3 m ρ c (Proc.devRef .tc main_v7) = val_main_v7 (F := Ideal) x1 := by
  refine (hop3 m ρ c main_v7 (by decide)).trans ((hop2 m ρ c main_v7 (by decide)).trans ?_)
  show StableHlo.after hostOps0 (W0 m ρ c) (Proc.devRef .tc main_v7) = _
  unfold hostOps0
  after_results_simp
  rfl

/-- The degree scaling where (deg > 0, rsqrt deg, 0) after the second stretch. The first stretch is cut right after the
    destination indices are formed, so that the degree count reads them as one array; the `where` is an outlined function
    whose operations carry their values to their buffers' own types and back, the identity at literal buffers. -/
theorem dinv_at2 : W2 m ρ c (Proc.devRef .tc main_v15) = val_main_v15 (F := Ideal) x1 := by
  show StableHlo.after hostOps0_1 (StableHlo.after hostOps0 (W0 m ρ c)) (Proc.devRef .tc main_v15) = _
  rw [Cert.AfterSplit.after_take_drop hostOps0 8 (W0 m ρ c)]
  have h7 : StableHlo.after (List.take 8 hostOps0) (W0 m ρ c) (Proc.devRef .tc main_v7) = val_main_v7 (F := Ideal) x1 := by
    unfold hostOps0
    simp only [List.take]
    after_results_simp
    rfl
  generalize StableHlo.after (List.take 8 hostOps0) (W0 m ρ c) = V8 at h7 ⊢
  unfold hostOps0 hostOps0_1
  simp only [List.drop]
  after_results_simp
  rw [h7]
  simp only [Cert.TRefRoundTrip.ofBuf_toBuf]
  have c13 : ∀ v : (⟨S100000, .i1⟩ : BufTy).Contents (Elt Ideal),
      (StableHlo.TRef.of (sig := sig) (T := ⟨S100000, .i1⟩) main_v13).ofBuf (Val := Elt Ideal) v = v := fun _ => rfl
  have c14 : ∀ v : (⟨S100000, .f32⟩ : BufTy).Contents (Elt Ideal),
      (StableHlo.TRef.of (sig := sig) (T := ⟨S100000, .f32⟩) main_v14).ofBuf (Val := Elt Ideal) v = v := fun _ => rfl
  have c2 : ∀ v : (⟨S_, .f32⟩ : BufTy).Contents (Elt Ideal),
      (StableHlo.TRef.of (sig := sig) (T := ⟨S_, .f32⟩) main_cst_2).ofBuf (Val := Elt Ideal) v = v := fun _ => rfl
  have c15 : ∀ v : (⟨S100000, .f32⟩ : BufTy).Contents (Elt Ideal),
      (StableHlo.TRef.of (sig := sig) (T := ⟨S100000, .f32⟩) main_v15).toBuf (Val := Elt Ideal) v = v := fun _ => rfl
  rw [c13, c14, c2, c15]
  rfl

/-- The edge weights at the first region's entry: the scaling gathered at the sources times the scaling gathered at the
    destinations. -/
theorem norm_at3 : W3 m ρ c (Proc.devRef .tc main_v30) = val_main_v30 (F := Ideal) x1 := by
  have h3 : W2 m ρ c (Proc.devRef .tc main_v3) = val_main_v3 (F := Ideal) x1 :=
    (hop3 m ρ c main_v3 (by decide)).symm.trans (src_at3 m ρ c)
  have h7 : W2 m ρ c (Proc.devRef .tc main_v7) = val_main_v7 (F := Ideal) x1 :=
    (hop3 m ρ c main_v7 (by decide)).symm.trans (dst_at3 m ρ c)
  have h15 := dinv_at2 m ρ c
  show StableHlo.after hostOps0_2 (W2 m ρ c) (Proc.devRef .tc main_v30) = _
  generalize W2 m ρ c = V2 at h3 h7 h15 ⊢
  unfold hostOps0_2
  after_results_simp
  rw [h3, h7, h15]
  rfl

end Cert.KernelIdeal.ChainA

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibRowSteps.lean ====
/-
  Reusable definitions and lemmas: three dense steps of a graph network on whole arrays, and their row locality.

  The three dense steps of a two-layer graph convolution, each as one function of whole arrays over the extended
  reals, entry by entry, and the fact the proof rests on: every step is ROW-LOCAL. Row p of the result reads row p
  of its first operand and nothing else of it (the second operand — a weight matrix, or a bias row — is read whole),
  so a block of consecutive rows of the result is the same step applied to that block of rows.

    dense x w      [p, q] = Σ_k x[p, k] · w[k, q]                              (a feature transform)
    biasClamp a b  [p, q] = max (a[p, q] + b[0, q]) 0                          (bias, then clamp at zero)
    logSoftmax a b [p, q] = v[p, q] − M_p − log Σ_j exp (v[p, j] − M_p),       v = a + b[0, ·],  M_p = max_j v[p, j]

  The row maximum is the fold of max from −∞ and the two float literals stay the words the programs print (zero and
  −∞ in f32): the same word stands on both sides of every comparison, so neither is ever evaluated. Generic in the
  extents.
-/
import Idealize.ShloMosaic.PureOps.Ideal
import Idealize.ShloMosaic.Lib.ValueIdx

noncomputable section

namespace Cert.Gcn

open Idealize.ShloMosaic Idealize.ShloMosaic.ValueIdx

/-- An [a, b] array over the extended reals. -/
abbrev Mat (a b : ℕ) : Type := (⟨2, ![a, b]⟩ : Shape).Idx → EReal

variable {n n' k c : ℕ}

/-- The f32 word of zero and of −∞ as extended reals (kept as words). -/
abbrev zeroW : EReal := Ideal.ofBits .f32 0x00000000#32
abbrev negInfW : EReal := Ideal.ofBits .f32 0xFF800000#32

/-- Row p of a matrix times a matrix, at column q. -/
def denseAt (x : Mat n k) (w : Mat k c) (p : Fin n) (q : Fin c) : EReal := ∑ j : Fin k, x (ix2 p j) * w (ix2 j q)

/-- The matrix product, entry by entry. -/
def dense (x : Mat n k) (w : Mat k c) : Mat n c := fun i => denseAt x w (i 0) (i 1)

theorem dense_apply (x : Mat n k) (w : Mat k c) (p : Fin n) (q : Fin c) :
    dense x w (ix2 p q) = ∑ j : Fin k, x (ix2 p j) * w (ix2 j q) := rfl

/-- Bias row added to every row, then the clamp at zero. -/
def biasClampAt (a : Mat n c) (b : Mat 1 c) (p : Fin n) (q : Fin c) : EReal := max (a (ix2 p q) + b (ix2 0 q)) zeroW

def biasClamp (a : Mat n c) (b : Mat 1 c) : Mat n c := fun i => biasClampAt a b (i 0) (i 1)

theorem biasClamp_apply (a : Mat n c) (b : Mat 1 c) (p : Fin n) (q : Fin c) :
    biasClamp a b (ix2 p q) = max (a (ix2 p q) + b (ix2 0 q)) zeroW := rfl

/-- Row p of a + b, as a function of the column. -/
def shifted (a : Mat n c) (b : Mat 1 c) (p : Fin n) : Fin c → EReal := fun j => a (ix2 p j) + b (ix2 0 j)

/-- The maximum of a row, folded from −∞. -/
def rowMax (v : Fin c → EReal) : EReal := (Finset.univ : Finset (Fin c)).fold max negInfW v

/-- The log-softmax of a row v at column q. -/
def logSoftmaxRow (v : Fin c → EReal) (q : Fin c) : EReal :=
  (v q - rowMax v) - Ideal.log (∑ j : Fin c, Ideal.exp (v j - rowMax v))

def logSoftmax (a : Mat n c) (b : Mat 1 c) : Mat n c := fun i => logSoftmaxRow (shifted a b (i 0)) (i 1)

theorem logSoftmax_apply (a : Mat n c) (b : Mat 1 c) (p : Fin n) (q : Fin c) :
    logSoftmax a b (ix2 p q) = logSoftmaxRow (shifted a b p) q := rfl

/-! ## Row locality: a row of the result only reads that row of the first operand -/

theorem dense_row_congr (x : Mat n k) (x' : Mat n' k) (w : Mat k c) (p : Fin n) (p' : Fin n')
    (h : ∀ j : Fin k, x (ix2 p j) = x' (ix2 p' j)) (q : Fin c) :
    dense x w (ix2 p q) = dense x' w (ix2 p' q) := by
  rw [dense_apply, dense_apply]
  exact Finset.sum_congr rfl fun j _ => by rw [h j]

theorem biasClamp_row_congr (a : Mat n c) (a' : Mat n' c) (b : Mat 1 c) (p : Fin n) (p' : Fin n')
    (h : ∀ j : Fin c, a (ix2 p j) = a' (ix2 p' j)) (q : Fin c) :
    biasClamp a b (ix2 p q) = biasClamp a' b (ix2 p' q) := by
  rw [biasClamp_apply, biasClamp_apply, h q]

theorem logSoftmax_row_congr (a : Mat n c) (a' : Mat n' c) (b : Mat 1 c) (p : Fin n) (p' : Fin n')
    (h : ∀ j : Fin c, a (ix2 p j) = a' (ix2 p' j)) (q : Fin c) :
    logSoftmax a b (ix2 p q) = logSoftmax a' b (ix2 p' q) := by
  rw [logSoftmax_apply, logSoftmax_apply]
  have e : shifted a b p = shifted a' b p' := funext fun j => by unfold shifted; rw [h j]
  rw [e]

/-! ## The same, between a block of rows and the whole array: the entry i' of the array and the entry j of the block
    agree as soon as the operands agree on what that entry reads -/

theorem dense_transfer (xb : Mat n' k) (wb : Mat k c) (x : Mat n k) (w : Mat k c)
    (j : (⟨2, ![n', c]⟩ : Shape).Idx) (i : (⟨2, ![n, c]⟩ : Shape).Idx)
    (hx : ∀ l : Fin k, xb (ix2 (j 0) l) = x (ix2 (i 0) l)) (hw : ∀ l : Fin k, wb (ix2 l (j 1)) = w (ix2 l (i 1))) :
    dense xb wb j = dense x w i := by
  unfold dense denseAt
  exact Finset.sum_congr rfl fun l _ => by rw [hx l, hw l]

theorem biasClamp_transfer (ab : Mat n' c) (bb : Mat 1 c) (a : Mat n c) (b : Mat 1 c)
    (j : (⟨2, ![n', c]⟩ : Shape).Idx) (i : (⟨2, ![n, c]⟩ : Shape).Idx)
    (ha : ab (ix2 (j 0) (j 1)) = a (ix2 (i 0) (i 1))) (hb : bb (ix2 0 (j 1)) = b (ix2 0 (i 1))) :
    biasClamp ab bb j = biasClamp a b i := by
  unfold biasClamp biasClampAt
  rw [ha, hb]

theorem logSoftmax_transfer (ab : Mat n' c) (bb : Mat 1 c) (a : Mat n c) (b : Mat 1 c)
    (j : (⟨2, ![n', c]⟩ : Shape).Idx) (i : (⟨2, ![n, c]⟩ : Shape).Idx)
    (ha : ∀ l : Fin c, ab (ix2 (j 0) l) = a (ix2 (i 0) l)) (hb : ∀ l : Fin c, bb (ix2 0 l) = b (ix2 0 l))
    (hq : (j 1 : Fin c) = i 1) :
    logSoftmax ab bb j = logSoftmax a b i := by
  unfold logSoftmax
  have e : shifted ab bb (j 0) = shifted a b (i 0) := funext fun l => by unfold shifted; rw [ha l, hb l]
  rw [e, hq]

end Cert.Gcn

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibLogSoftmaxRows.lean ====
/-
  Reusable lemmas: a bias row spread down a block, and the log-softmax of the rows of a block in a kernel's spelling.

  A kernel takes the log-softmax of every row of an [a, c] block v by: the row maxima (a lane reduction from −∞) kept as
  a column [a, 1] and spread back to [a, c]; s = v − that; exp; the row sums (a lane reduction from zero) kept as a
  column; log; spread back; s − that. Read at (p, q) over the extended reals this is the log-softmax of row p at q
  (`Cert.Gcn.logSoftmaxRow`: the maximum as the fold of max from −∞). Generic in the extents a, c.
-/
import proofs.«138659_j53807350284438_1_alg».proof.Proof.LibRowSteps
import proofs.«138659_j53807350284438_1_alg».proof.Proof.LibKeepdimsColumn
import proofs.«138659_j53807350284438_1_alg».proof.Proof.LibSlabLayout
import Idealize.ShloMosaic.Lib.Pipeline.Value
import Idealize.ShloMosaic.Lib.ValueIdx
import Idealize.ShloMosaic.PureOps.Ideal.Laws

noncomputable section

namespace Cert.LogSoftmaxRows

open Idealize.ShloMosaic Idealize.ShloMosaic.ValueIdx Cert.Gcn

/-- One row spread down the rows of an [a, b] array reads, at (p, q), the row's entry q. -/
theorem row_spread {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The log-softmax of the rows of an [a, c] array v, in the kernel's spelling: the row maxima (from −∞) kept as a
    column and spread back, subtracted; exp; the row sums kept as a column; log; spread back; subtracted. -/
theorem logSoftmax_rows {a c : ℕ} (v : FVec Ideal ⟨2, ![a, c]⟩ .f32)
    (hr : (⟨2, ![a, c]⟩ : Shape).Reduces [(1 : Fin 2)] ⟨1, ![a]⟩) (hc : (⟨1, ![a]⟩ : Shape).ShapeCasts ⟨2, ![a, 1]⟩)
    (hb : (⟨2, ![a, 1]⟩ : Shape).Broadcasts ⟨2, ![a, c]⟩) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin a) (q : Fin c) :
    subf (subf v (broadcastTo ⟨2, ![a, c]⟩ (shapeCast ⟨2, ![a, 1]⟩ (multiReduction .maximumf [(1 : Fin 2)] ⟨1, ![a]⟩ v 0xFF800000#32 hr hφ hmax) hc) hb))
      (broadcastTo ⟨2, ![a, c]⟩ (log (shapeCast ⟨2, ![a, 1]⟩ (multiReduction .add [(1 : Fin 2)] ⟨1, ![a]⟩
        (exp (subf v (broadcastTo ⟨2, ![a, c]⟩ (shapeCast ⟨2, ![a, 1]⟩ (multiReduction .maximumf [(1 : Fin 2)] ⟨1, ![a]⟩ v 0xFF800000#32 hr hφ hmax) hc) hb)))
        0x00000000#32 hr hφ hadd) hc)) hb) (ix2 p q)
      = logSoftmaxRow (fun j => v (ix2 p j)) q := by
  have hm : ∀ j : Fin c, broadcastTo ⟨2, ![a, c]⟩ (shapeCast ⟨2, ![a, 1]⟩ (multiReduction .maximumf [(1 : Fin 2)] ⟨1, ![a]⟩ v 0xFF800000#32 hr hφ hmax) hc) hb (ix2 p j)
      = rowMax (fun j => v (ix2 p j)) := fun j => by
    rw [Cert.KeepdimsColumn.broadcastTo_a1_ab_apply, Cert.KeepdimsColumn.shapeCast_a_a1_apply, Cert.SlabLayout.rowMax_apply]
    rfl
  rw [subf_apply, subf_apply, hm q, Cert.KeepdimsColumn.broadcastTo_a1_ab_apply]
  show (v (ix2 p q) - rowMax fun j => v (ix2 p j)) - Ideal.log (shapeCast ⟨2, ![a, 1]⟩ (multiReduction .add [(1 : Fin 2)] ⟨1, ![a]⟩
      (exp (subf v (broadcastTo ⟨2, ![a, c]⟩ (shapeCast ⟨2, ![a, 1]⟩ (multiReduction .maximumf [(1 : Fin 2)] ⟨1, ![a]⟩ v 0xFF800000#32 hr hφ hmax) hc) hb)))
      0x00000000#32 hr hφ hadd) hc (ix2 p (0 : Fin 1))) = _
  rw [Cert.KeepdimsColumn.shapeCast_a_a1_apply, Cert.SlabLayout.rowSum_apply]
  unfold logSoftmaxRow
  congr 2
  refine Finset.sum_congr rfl fun j _ => ?_
  show Ideal.exp (subf v _ (ix2 p j)) = _
  rw [subf_apply, hm j]

end Cert.LogSoftmaxRows

end
-- ==== Proof.LibLayerBlocks.lean ====
/-
  Reusable lemmas: the dense steps of a graph-network layer as a kernel block spells them, read at an entry.

  A block of M rows goes through one of three bodies, each ending on the matrix unit or the vector unit:

      product      x, w        ↦  (x · w)[p, q]           = Σ_k x[p, k] · w[k, q]
      clamp        a, b        ↦  max (a[p, q] + b[0, q]) 0
      clamp-product a, b, w    ↦  Σ_k max (a[p, k] + b[0, k]) 0 · w[k, q]

  where the operands of a product are first rounded to bf16 (the identity over the extended reals), the product is
  accumulated into the zero splat, the bias is a [1, N] row spread down the rows by a vector broadcast, both operands of
  the sum pass through an identity shape cast, and the clamp is a maximum with a splat scalar zero. Each body read at
  (p, q) is the corresponding whole-array step of `Cert.Gcn` (`dense`, `biasClamp`) at (p, q). Generic in M, K, N.
-/
import proofs.«138659_j53807350284438_1_alg».proof.Proof.LibMatmulNN
import proofs.«138659_j53807350284438_1_alg».proof.Proof.LibRowSteps
import proofs.«138659_j53807350284438_1_alg».proof.Proof.LibLogSoftmaxRows
import Idealize.ShloMosaic.Lib.Pipeline.Value
import Idealize.ShloMosaic.Lib.ValueIdx
import Idealize.ShloMosaic.PureOps.Ideal.Laws

noncomputable section

namespace Cert.LayerBlocks

open Idealize.ShloMosaic Idealize.ShloMosaic.ValueIdx Cert.Gcn

variable {M K N : ℕ}

/-- A product of bf16-rounded operands into zeros, at (p, q), is the matrix product's entry. -/
theorem product_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (h : FTy.bf16.bits < FTy.f32.bits) (p : Fin M) (q : Fin N) :
    FloatOps.matmul D prec (truncf .bf16 x h) (truncf .bf16 w h) (constant (F := Ideal) ⟨2, ![M, N]⟩ .f32 0x00000000#32) (ix2 p q)
      = dense x w (ix2 p q) :=
  (Cert.MatmulNN.matmul_zero_apply D hD prec (truncf .bf16 x h) (truncf .bf16 w h) p q).trans rfl

/-- A bias row spread down the rows and added, then the clamp at zero, at (p, q). -/
theorem clamp_apply (a : FVec Ideal ⟨2, ![M, N]⟩ .f32) (b : FVec Ideal ⟨2, ![1, N]⟩ .f32)
    (ha : (⟨2, ![M, N]⟩ : Shape).ShapeCasts ⟨2, ![M, N]⟩) (hb : (⟨2, ![1, N]⟩ : Shape).ShapeCasts ⟨2, ![1, N]⟩)
    (hs : (⟨2, ![1, N]⟩ : Shape).Broadcasts ⟨2, ![M, N]⟩) (p : Fin M) (q : Fin N) :
    maximumf (addf (shapeCast ⟨2, ![M, N]⟩ a ha) (broadcastTo ⟨2, ![M, N]⟩ (shapeCast ⟨2, ![1, N]⟩ b hb) hs))
        (broadcast ⟨2, ![M, N]⟩ (Scalar.ofBits (F := Ideal) .f32 0x00000000#32)) (ix2 p q)
      = biasClamp a b (ix2 p q) := by
  rw [maximumf_apply, addf_apply, broadcast_apply, shapeCast_self, shapeCast_self, Cert.LogSoftmaxRows.row_spread]
  rfl

/-- The clamp followed by a product: a layer's bias and clamp fused onto the next layer's feature transform. -/
theorem clampProduct_apply (D : DotDims ⟨2, ![M, K]⟩ ⟨2, ![K, N]⟩ ⟨2, ![M, N]⟩) (hD : D = DotDims.plain M K N)
    (prec : Option ContractPrecision) (a : FVec Ideal ⟨2, ![M, K]⟩ .f32) (b : FVec Ideal ⟨2, ![1, K]⟩ .f32)
    (w : FVec Ideal ⟨2, ![K, N]⟩ .f32)
    (ha : (⟨2, ![M, K]⟩ : Shape).ShapeCasts ⟨2, ![M, K]⟩) (hb : (⟨2, ![1, K]⟩ : Shape).ShapeCasts ⟨2, ![1, K]⟩)
    (hs : (⟨2, ![1, K]⟩ : Shape).Broadcasts ⟨2, ![M, K]⟩) (h : FTy.bf16.bits < FTy.f32.bits) (p : Fin M) (q : Fin N) :
    FloatOps.matmul D prec
        (truncf .bf16 (maximumf (addf (shapeCast ⟨2, ![M, K]⟩ a ha) (broadcastTo ⟨2, ![M, K]⟩ (shapeCast ⟨2, ![1, K]⟩ b hb) hs))
          (broadcast ⟨2, ![M, K]⟩ (Scalar.ofBits (F := Ideal) .f32 0x00000000#32))) h)
        (truncf .bf16 w h) (constant (F := Ideal) ⟨2, ![M, N]⟩ .f32 0x00000000#32) (ix2 p q)
      = dense (biasClamp a b) w (ix2 p q) := by
  refine (Cert.MatmulNN.matmul_zero_apply D hD prec _ _ p q).trans ?_
  rw [dense_apply]
  refine Finset.sum_congr rfl fun k _ => ?_
  rw [truncf_apply, truncf_apply, clamp_apply]

/-- A product whose left operand first passes through an identity shape cast. -/
theorem castProduct_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (hx : (⟨2, ![M, K]⟩ : Shape).ShapeCasts ⟨2, ![M, K]⟩) (h : FTy.bf16.bits < FTy.f32.bits) (p : Fin M) (q : Fin N) :
    FloatOps.matmul D prec (truncf .bf16 (shapeCast ⟨2, ![M, K]⟩ x hx) h) (truncf .bf16 w h)
        (constant (F := Ideal) ⟨2, ![M, N]⟩ .f32 0x00000000#32) (ix2 p q)
      = dense x w (ix2 p q) := by
  refine (Cert.MatmulNN.matmul_zero_apply D hD prec _ _ p q).trans ?_
  rw [dense_apply]
  refine Finset.sum_congr rfl fun k _ => ?_
  rw [truncf_apply, truncf_apply, shapeCast_self]

/-- The clamp of a sum whose first operand is used as it is (no cast). -/
theorem clampRaw_apply (a : FVec Ideal ⟨2, ![M, N]⟩ .f32) (b : FVec Ideal ⟨2, ![1, N]⟩ .f32)
    (hb : (⟨2, ![1, N]⟩ : Shape).ShapeCasts ⟨2, ![1, N]⟩) (hs : (⟨2, ![1, N]⟩ : Shape).Broadcasts ⟨2, ![M, N]⟩)
    (p : Fin M) (q : Fin N) :
    maximumf (addf a (broadcastTo ⟨2, ![M, N]⟩ (shapeCast ⟨2, ![1, N]⟩ b hb) hs))
        (broadcast ⟨2, ![M, N]⟩ (Scalar.ofBits (F := Ideal) .f32 0x00000000#32)) (ix2 p q)
      = biasClamp a b (ix2 p q) := by
  rw [maximumf_apply, addf_apply, broadcast_apply, shapeCast_self, Cert.LogSoftmaxRows.row_spread]
  rfl

/-- A bias row added to every row, at (p, q). -/
theorem shift_apply (a : FVec Ideal ⟨2, ![M, N]⟩ .f32) (b : FVec Ideal ⟨2, ![1, N]⟩ .f32)
    (hb : (⟨2, ![1, N]⟩ : Shape).ShapeCasts ⟨2, ![1, N]⟩) (hs : (⟨2, ![1, N]⟩ : Shape).Broadcasts ⟨2, ![M, N]⟩)
    (p : Fin M) (q : Fin N) :
    addf a (broadcastTo ⟨2, ![M, N]⟩ (shapeCast ⟨2, ![1, N]⟩ b hb) hs) (ix2 p q) = shifted a b p q := by
  rw [addf_apply, shapeCast_self, Cert.LogSoftmaxRows.row_spread]
  rfl

/-- A two-layer classifier with a log-softmax on every row, in a kernel block's spelling: the rows through a product
    (operands rounded to bf16, the left one through an identity cast), a bias row, a clamp at zero, a second product, a
    second bias row, and the row log-softmax (row maxima from −∞ kept as a column and spread back, subtracted; exp; row sums
    kept as a column; log; spread back; subtracted). At (p, q) it is the whole-array classifier's entry. -/
theorem classifier_apply {G H C : ℕ} (D1 : DotDims ⟨2, ![G, K]⟩ ⟨2, ![K, H]⟩ ⟨2, ![G, H]⟩) (hD1 : D1 = DotDims.plain G K H)
    (D2 : DotDims ⟨2, ![G, H]⟩ ⟨2, ![H, C]⟩ ⟨2, ![G, C]⟩) (hD2 : D2 = DotDims.plain G H C)
    (prec : Option ContractPrecision)
    (x : FVec Ideal ⟨2, ![G, K]⟩ .f32) (w1 : FVec Ideal ⟨2, ![K, H]⟩ .f32) (b1 : FVec Ideal ⟨2, ![1, H]⟩ .f32)
    (w2 : FVec Ideal ⟨2, ![H, C]⟩ .f32) (b2 : FVec Ideal ⟨2, ![1, C]⟩ .f32)
    (hx : (⟨2, ![G, K]⟩ : Shape).ShapeCasts ⟨2, ![G, K]⟩)
    (hb1 : (⟨2, ![1, H]⟩ : Shape).ShapeCasts ⟨2, ![1, H]⟩) (hs1 : (⟨2, ![1, H]⟩ : Shape).Broadcasts ⟨2, ![G, H]⟩)
    (hb2 : (⟨2, ![1, C]⟩ : Shape).ShapeCasts ⟨2, ![1, C]⟩) (hs2 : (⟨2, ![1, C]⟩ : Shape).Broadcasts ⟨2, ![G, C]⟩)
    (hr : (⟨2, ![G, C]⟩ : Shape).Reduces [(1 : Fin 2)] ⟨1, ![G]⟩) (hc : (⟨1, ![G]⟩ : Shape).ShapeCasts ⟨2, ![G, 1]⟩)
    (hbc : (⟨2, ![G, 1]⟩ : Shape).Broadcasts ⟨2, ![G, C]⟩) (h : FTy.bf16.bits < FTy.f32.bits) (hφ : FKind.Formats .f32)
    (hmax : (0xFF800000#32 : BitVec FTy.f32.bits) = FKind.maximumf.neutral .f32 hφ)
    (hadd : (0x00000000#32 : BitVec FTy.f32.bits) = FKind.add.neutral .f32 hφ)
    (logits : FVec Ideal ⟨2, ![G, C]⟩ .f32)
    (hl : logits = addf (FloatOps.matmul D2 prec
        (truncf .bf16 (maximumf (addf (FloatOps.matmul D1 prec (truncf .bf16 (shapeCast ⟨2, ![G, K]⟩ x hx) h) (truncf .bf16 w1 h)
            (constant (F := Ideal) ⟨2, ![G, H]⟩ .f32 0x00000000#32)) (broadcastTo ⟨2, ![G, H]⟩ (shapeCast ⟨2, ![1, H]⟩ b1 hb1) hs1))
          (broadcast ⟨2, ![G, H]⟩ (Scalar.ofBits (F := Ideal) .f32 0x00000000#32))) h)
        (truncf .bf16 w2 h) (constant (F := Ideal) ⟨2, ![G, C]⟩ .f32 0x00000000#32))
      (broadcastTo ⟨2, ![G, C]⟩ (shapeCast ⟨2, ![1, C]⟩ b2 hb2) hs2))
    (p : Fin G) (q : Fin C) :
    subf (subf logits (broadcastTo ⟨2, ![G, C]⟩ (shapeCast ⟨2, ![G, 1]⟩ (multiReduction .maximumf [(1 : Fin 2)] ⟨1, ![G]⟩ logits 0xFF800000#32 hr hφ hmax) hc) hbc))
      (broadcastTo ⟨2, ![G, C]⟩ (log (shapeCast ⟨2, ![G, 1]⟩ (multiReduction .add [(1 : Fin 2)] ⟨1, ![G]⟩
        (exp (subf logits (broadcastTo ⟨2, ![G, C]⟩ (shapeCast ⟨2, ![G, 1]⟩ (multiReduction .maximumf [(1 : Fin 2)] ⟨1, ![G]⟩ logits 0xFF800000#32 hr hφ hmax) hc) hbc)))
        0x00000000#32 hr hφ hadd) hc)) hbc) (ix2 p q)
      = logSoftmax (dense (biasClamp (dense x w1) b1) w2) b2 (ix2 p q) := by
  rw [Cert.LogSoftmaxRows.logSoftmax_rows, logSoftmax_apply]
  refine congrArg (fun v => logSoftmaxRow v q) (funext fun j => ?_)
  rw [hl, shift_apply]
  unfold shifted
  refine congrArg (· + b2 (ix2 0 j)) ?_
  refine (Cert.MatmulNN.matmul_zero_apply D2 hD2 prec _ _ p j).trans ?_
  rw [dense_apply]
  refine Finset.sum_congr rfl fun k _ => ?_
  rw [truncf_apply, truncf_apply, clampRaw_apply]
  refine congrArg (· * w2 (ix2 k j)) ?_
  rw [biasClamp_apply, biasClamp_apply, castProduct_apply D1 hD1]

end Cert.LayerBlocks

end
-- ==== Proof.Region0.lean ====
/-
  Region 0: the first feature transform, tiled.

  The grid has 20 points; point t takes rows 5000·t … 5000·t + 4999 of the node features x and the whole weight matrix w,
  and writes rows 5000·t … of the output: the product of the block of rows with w. A row of a matrix product reads only
  that row of the left operand, so block t of the output is block t of the whole product x · w, and the 20 blocks tile
  the output: after the region the output array is `dense x w`, for any contents `V` the region is entered from.
-/
import proofs.«138659_j53807350284438_1_alg».proof.Proof.Gen.KernelIdeal.Frame
import proofs.«138659_j53807350284438_1_alg».proof.Proof.LibLayerBlocks
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: row p of the block times column q of the weights. -/
theorem pay_entry (x : Vec Ideal S5000x128 .f32) (w : Vec Ideal S128x64 .f32) (p : Fin 5000) (q : Fin 64) :
    k0_pay1 x w (ix2 p q) = dense (n := 5000) (k := 128) (c := 64) x w (ix2 p q) := by
  unfold k0_pay1
  exact Cert.LayerBlocks.product_apply _ rfl none x w _ p q

/-- The index maps over the grid: the row block moves with the output's, the weights stay. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point t writes back is block t of the whole product. -/
theorem flushed_eq (c : Dev nD) (t : Fin cfg0.N) :
    (dat0 V c).flushed 2 t = ((cfg0.win 2).blk t).view.read (Elt Ideal)
      (dense (n := 100000) (k := 128) (c := 64) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_entry (iblk0 V c 0 t) (iblk0 V c 1 t) p q).trans ?_
  refine dense_transfer (n := 100000) (n' := 5000) (k := 128) (c := 64) (iblk0 V c 0 t) (iblk0 V c 1 t)
    (V c (Pipeline.arrRef spec0 0)) (V c (Pipeline.arrRef spec0 1)) (ix2 p q) (((cfg0.win 2).blk t).view.emb (ix2 p q))
    (fun l => ?_) (fun l => ?_)
  · show V c (Pipeline.arrRef spec0 0) (((cfg0.win 0).blk t).view.emb (ix2 p l)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * l.val = l.val; omega
  · show V c (Pipeline.arrRef spec0 1) (((cfg0.win 1).blk t).view.emb (ix2 l q)) = _
    refine congrArg _ (funext fun a => Fin.ext ?_)
    match a with
    | ⟨0, _⟩ => show win0_1.index t (0 : Fin 2) * 128 + 1 * l.val = l.val; omega
    | ⟨1, _⟩ => show win0_1.index t (1 : Fin 2) * 64 + 1 * q.val = win0_2.index t (1 : Fin 2) * 64 + 1 * q.val; omega

/-- An index of the output array is in point t's block iff its row is among the block's rows. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v31).slice (win0_2.rect t)).set ↔ _
  rw [View.set_slice_whole, Rect.mem_set_unit]
  exact Iff.rfl

/-- The blocks tile the output: row r is in the block of point r / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its output array is the whole product of the arrays it was entered with. -/
theorem value (c : Dev nD) : (dat0 V c).arrAt 2 cfg0.N
    = dense (n := 100000) (k := 128) (c := 64) (V c (Pipeline.arrRef spec0 0)) (V c (Pipeline.arrRef spec0 1)) :=
  (dat0 V c).arrAt_eq_of_cover 2 _ (fun t _ => flushed_eq V c t) cover

end Cert.KernelIdeal.Region0

end
-- ==== Proof.Region1.lean ====
/-
  Region 1: the first layer's bias and clamp fused onto the second feature transform, tiled.

  Point t of 20 takes rows 5000·t … of the aggregated features, the bias as a [1, 64] row and the whole weight matrix,
  and writes rows 5000·t … of max (agg + bias, 0) · w. Both steps are row-local, so block t of the output is block t of
  the whole-array step and the blocks tile the output: after the region the output array is
  `dense (biasClamp agg bias) w`, for any contents `V` the region is entered from.
-/
import proofs.«138659_j53807350284438_1_alg».proof.Proof.Gen.KernelIdeal.Frame
import proofs.«138659_j53807350284438_1_alg».proof.Proof.LibLayerBlocks
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: row p of the block, biased and clamped, times column q of the weights. -/
theorem pay_entry (x : Vec Ideal S5000x64 .f32) (b : Vec Ideal S1x64 .f32) (w : Vec Ideal S64x128 .f32)
    (p : Fin 5000) (q : Fin 128) :
    k1_pay1 x b w (ix2 p q)
      = dense (n := 5000) (k := 64) (c := 128) (biasClamp (n := 5000) (c := 64) x b) w (ix2 p q) := by
  unfold k1_pay1
  exact Cert.LayerBlocks.clampProduct_apply _ rfl none x b w _ _ _ _ p q

/-- The index maps over the grid: the row block moves with the output's, the bias row and the weights stay. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every row block is some point's. -/
theorem idx_onto : ∀ q0 : Fin 20, ∃ t : Fin cfg1.N, win1_3.index t = ![q0.val, 0] :=
  (by decide +kernel : ∀ q0 : Fin 20, ∃ t : Fin grid1.N, win1_3.index t = ![q0.val, 0])

set_option maxHeartbeats 4000000 in
/-- What point t writes back is block t of the whole layer step. -/
theorem flushed_eq (c : Dev nD) (t : Fin cfg1.N) :
    (dat1 V c).flushed 3 t = ((cfg1.win 3).blk t).view.read (Elt Ideal)
      (dense (n := 100000) (k := 64) (c := 128)
        (biasClamp (n := 100000) (c := 64) (V c (Pipeline.arrRef spec1 0)) (V c (Pipeline.arrRef spec1 1)))
        (V c (Pipeline.arrRef spec1 2))) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x128) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  refine (pay_entry (iblk1 V c 0 t) (iblk1 V c 1 t) (iblk1 V c 2 t) p q).trans ?_
  refine dense_transfer (n := 100000) (n' := 5000) (k := 64) (c := 128)
    (biasClamp (n := 5000) (c := 64) (iblk1 V c 0 t) (iblk1 V c 1 t)) (iblk1 V c 2 t)
    (biasClamp (n := 100000) (c := 64) (V c (Pipeline.arrRef spec1 0)) (V c (Pipeline.arrRef spec1 1)))
    (V c (Pipeline.arrRef spec1 2)) (ix2 p q) (((cfg1.win 3).blk t).view.emb (ix2 p q)) (fun l => ?_) (fun l => ?_)
  · refine biasClamp_transfer (n := 100000) (n' := 5000) (c := 64) (iblk1 V c 0 t) (iblk1 V c 1 t)
      (V c (Pipeline.arrRef spec1 0)) (V c (Pipeline.arrRef spec1 1)) (ix2 p l)
      (ix2 ((((cfg1.win 3).blk t).view.emb (ix2 p q)) 0) l) ?_ ?_
    · show V c (Pipeline.arrRef spec1 0) (((cfg1.win 0).blk t).view.emb (ix2 p l)) = _
      refine congrArg _ (funext fun a => Fin.ext ?_)
      match a with
      | ⟨0, _⟩ => show win1_0.index t (0 : Fin 2) * 5000 + 1 * p.val = win1_3.index t (0 : Fin 2) * 5000 + 1 * p.val; omega
      | ⟨1, _⟩ => show win1_0.index t (1 : Fin 2) * 64 + 1 * l.val = l.val; omega
    · show V c (Pipeline.arrRef spec1 1) (((cfg1.win 1).blk t).view.emb (ix2 (0 : Fin 1) l)) = _
      refine congrArg _ (funext fun a => Fin.ext ?_)
      match a with
      | ⟨0, _⟩ => show win1_1.index t (0 : Fin 2) * 1 + 1 * 0 = 0; omega
      | ⟨1, _⟩ => show win1_1.index t (1 : Fin 2) * 64 + 1 * l.val = l.val; omega
  · show V c (Pipeline.arrRef spec1 2) (((cfg1.win 2).blk t).view.emb (ix2 l q)) = _
    refine congrArg _ (funext fun a => Fin.ext ?_)
    match a with
    | ⟨0, _⟩ => show win1_2.index t (0 : Fin 2) * 64 + 1 * l.val = l.val; omega
    | ⟨1, _⟩ => show win1_2.index t (1 : Fin 2) * 128 + 1 * q.val = win1_3.index t (1 : Fin 2) * 128 + 1 * q.val; omega

/-- An index of the output array is in point t's block iff its row is among the block's rows. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v46).slice (win1_3.rect t)).set ↔ _
  rw [View.set_slice_whole, Rect.mem_set_unit]
  exact Iff.rfl

/-- The blocks tile the output: row r is in the block of point r / 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region its output array is the whole layer step of the arrays it was entered with. -/
theorem value (c : Dev nD) : (dat1 V c).arrAt 3 cfg1.N
    = dense (n := 100000) (k := 64) (c := 128)
        (biasClamp (n := 100000) (c := 64) (V c (Pipeline.arrRef spec1 0)) (V c (Pipeline.arrRef spec1 1)))
        (V c (Pipeline.arrRef spec1 2)) :=
  (dat1 V c).arrAt_eq_of_cover 3 _ (fun t _ => flushed_eq V c t) cover

end Cert.KernelIdeal.Region1

end
-- ==== Proof.Region2.lean ====
/-
  Region 2: the second layer's bias and clamp fused onto the third feature transform, tiled.

  Point t of 20 takes rows 5000·t … of the aggregated features, the bias as a [1, 128] row and the whole weight matrix,
  and writes rows 5000·t … of max (agg + bias, 0) · w. Both steps are row-local, so block t of the output is block t of
  the whole-array step and the blocks tile the output: after the region the output array is
  `dense (biasClamp agg bias) w`, for any contents `V` the region is entered from.
-/
import proofs.«138659_j53807350284438_1_alg».proof.Proof.Gen.KernelIdeal.Frame
import proofs.«138659_j53807350284438_1_alg».proof.Proof.LibLayerBlocks
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: row p of the block, biased and clamped, times column q of the weights. -/
theorem pay_entry (x : Vec Ideal S5000x128 .f32) (b : Vec Ideal S1x128 .f32) (w : Vec Ideal S128x128 .f32)
    (p : Fin 5000) (q : Fin 128) :
    k2_pay1 x b w (ix2 p q)
      = dense (n := 5000) (k := 128) (c := 128) (biasClamp (n := 5000) (c := 128) x b) w (ix2 p q) := by
  unfold k2_pay1
  exact Cert.LayerBlocks.clampProduct_apply _ rfl none x b w _ _ _ _ p q

/-- The index maps over the grid: the row block moves with the output's, the bias row and the weights stay. -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every row block is some point's. -/
theorem idx_onto : ∀ q0 : Fin 20, ∃ t : Fin cfg2.N, win2_3.index t = ![q0.val, 0] :=
  (by decide +kernel : ∀ q0 : Fin 20, ∃ t : Fin grid2.N, win2_3.index t = ![q0.val, 0])

set_option maxHeartbeats 4000000 in
/-- What point t writes back is block t of the whole layer step. -/
theorem flushed_eq (c : Dev nD) (t : Fin cfg2.N) :
    (dat2 V c).flushed 3 t = ((cfg2.win 3).blk t).view.read (Elt Ideal)
      (dense (n := 100000) (k := 128) (c := 128)
        (biasClamp (n := 100000) (c := 128) (V c (Pipeline.arrRef spec2 0)) (V c (Pipeline.arrRef spec2 1)))
        (V c (Pipeline.arrRef spec2 2))) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  refine (pay_entry (iblk2 V c 0 t) (iblk2 V c 1 t) (iblk2 V c 2 t) p q).trans ?_
  refine dense_transfer (n := 100000) (n' := 5000) (k := 128) (c := 128)
    (biasClamp (n := 5000) (c := 128) (iblk2 V c 0 t) (iblk2 V c 1 t)) (iblk2 V c 2 t)
    (biasClamp (n := 100000) (c := 128) (V c (Pipeline.arrRef spec2 0)) (V c (Pipeline.arrRef spec2 1)))
    (V c (Pipeline.arrRef spec2 2)) (ix2 p q) (((cfg2.win 3).blk t).view.emb (ix2 p q)) (fun l => ?_) (fun l => ?_)
  · refine biasClamp_transfer (n := 100000) (n' := 5000) (c := 128) (iblk2 V c 0 t) (iblk2 V c 1 t)
      (V c (Pipeline.arrRef spec2 0)) (V c (Pipeline.arrRef spec2 1)) (ix2 p l)
      (ix2 ((((cfg2.win 3).blk t).view.emb (ix2 p q)) 0) l) ?_ ?_
    · show V c (Pipeline.arrRef spec2 0) (((cfg2.win 0).blk t).view.emb (ix2 p l)) = _
      refine congrArg _ (funext fun a => Fin.ext ?_)
      match a with
      | ⟨0, _⟩ => show win2_0.index t (0 : Fin 2) * 5000 + 1 * p.val = win2_3.index t (0 : Fin 2) * 5000 + 1 * p.val; omega
      | ⟨1, _⟩ => show win2_0.index t (1 : Fin 2) * 128 + 1 * l.val = l.val; omega
    · show V c (Pipeline.arrRef spec2 1) (((cfg2.win 1).blk t).view.emb (ix2 (0 : Fin 1) l)) = _
      refine congrArg _ (funext fun a => Fin.ext ?_)
      match a with
      | ⟨0, _⟩ => show win2_1.index t (0 : Fin 2) * 1 + 1 * 0 = 0; omega
      | ⟨1, _⟩ => show win2_1.index t (1 : Fin 2) * 128 + 1 * l.val = l.val; omega
  · show V c (Pipeline.arrRef spec2 2) (((cfg2.win 2).blk t).view.emb (ix2 l q)) = _
    refine congrArg _ (funext fun a => Fin.ext ?_)
    match a with
    | ⟨0, _⟩ => show win2_2.index t (0 : Fin 2) * 128 + 1 * l.val = l.val; omega
    | ⟨1, _⟩ => show win2_2.index t (1 : Fin 2) * 128 + 1 * q.val = win2_3.index t (1 : Fin 2) * 128 + 1 * q.val; omega

/-- An index of the output array is in point t's block iff its row is among the block's rows. -/
theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v61).slice (win2_3.rect t)).set ↔ _
  rw [View.set_slice_whole, Rect.mem_set_unit]
  exact Iff.rfl

/-- The blocks tile the output: row r is in the block of point r / 5000. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After the region its output array is the whole layer step of the arrays it was entered with. -/
theorem value (c : Dev nD) : (dat2 V c).arrAt 3 cfg2.N
    = dense (n := 100000) (k := 128) (c := 128)
        (biasClamp (n := 100000) (c := 128) (V c (Pipeline.arrRef spec2 0)) (V c (Pipeline.arrRef spec2 1)))
        (V c (Pipeline.arrRef spec2 2)) :=
  (dat2 V c).arrAt_eq_of_cover 3 _ (fun t _ => flushed_eq V c t) cover

end Cert.KernelIdeal.Region2

end
-- ==== Proof.Region3.lean ====
/-
  Region 3: the third layer's bias and clamp, tiled.

  Point t of 20 takes rows 5000·t … of the aggregated features and the bias as a [1, 128] row, and writes rows 5000·t … of
  max (agg + bias, 0): an entry of the output reads the same entry of the input, so block t of the output is block t of
  the whole-array step and the blocks tile the output: after the region the output array is `biasClamp agg bias`.
-/
import proofs.«138659_j53807350284438_1_alg».proof.Proof.Gen.KernelIdeal.Frame
import proofs.«138659_j53807350284438_1_alg».proof.Proof.LibLayerBlocks
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry. -/
theorem pay_entry (x : Vec Ideal S5000x128 .f32) (b : Vec Ideal S1x128 .f32) (p : Fin 5000) (q : Fin 128) :
    k3_pay1 x b (ix2 p q) = biasClamp (n := 5000) (c := 128) x b (ix2 p q) := by
  unfold k3_pay1
  exact Cert.LayerBlocks.clamp_apply x b _ _ _ p q

/-- The index maps over the grid: the row block moves with the output's, the bias row stays. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 19 :=
  (by decide +kernel : ∀ t : Fin grid3.N, _)

/-- Every row block is some point's. -/
theorem idx_onto : ∀ q0 : Fin 20, ∃ t : Fin cfg3.N, win3_2.index t = ![q0.val, 0] :=
  (by decide +kernel : ∀ q0 : Fin 20, ∃ t : Fin grid3.N, win3_2.index t = ![q0.val, 0])

/-- What point t writes back is block t of the whole step. -/
theorem flushed_eq (c : Dev nD) (t : Fin cfg3.N) :
    (dat3 V c).flushed 2 t = ((cfg3.win 2).blk t).view.read (Elt Ideal)
      (biasClamp (n := 100000) (c := 128) (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine (pay_entry (iblk3 V c 0 t) (iblk3 V c 1 t) p q).trans ?_
  refine biasClamp_transfer (n := 100000) (n' := 5000) (c := 128) (iblk3 V c 0 t) (iblk3 V c 1 t)
    (V c (Pipeline.arrRef spec3 0)) (V c (Pipeline.arrRef spec3 1)) (ix2 p q) (((cfg3.win 2).blk t).view.emb (ix2 p q)) ?_ ?_
  · show V c (Pipeline.arrRef spec3 0) (((cfg3.win 0).blk t).view.emb (ix2 p q)) = _
    refine congrArg _ (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  · show V c (Pipeline.arrRef spec3 1) (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega

/-- An index of the output array is in point t's block iff its row is among the block's rows. -/
theorem mem_blk (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v76).slice (win3_2.rect t)).set ↔ _
  rw [View.set_slice_whole, Rect.mem_set_unit]
  exact Iff.rfl

/-- The blocks tile the output: row r is in the block of point r / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region its output array is the whole step of the arrays it was entered with. -/
theorem value (c : Dev nD) : (dat3 V c).arrAt 2 cfg3.N
    = biasClamp (n := 100000) (c := 128) (V c (Pipeline.arrRef spec3 0)) (V c (Pipeline.arrRef spec3 1)) :=
  (dat3 V c).arrAt_eq_of_cover 2 _ (fun t _ => flushed_eq V c t) cover

end Cert.KernelIdeal.Region3

end
-- ==== Proof.RefStages.lean ====
/-
  The reference's dense stages as whole-array steps.

  Between its gathers and scatter-adds the reference applies, to whole arrays, a feature transform (a matrix product),
  a bias row added to every row followed by a clamp at zero, and at the end the log-softmax of every row. Each such
  stage of the reference, read at an entry, is the corresponding step of `Cert.Gcn`:

      x · W                                          = dense x W
      max (agg + bias, 0) · W                        = dense (biasClamp agg bias) W
      max (agg + bias, 0)                            = biasClamp agg bias
      log_softmax (max (p · Wc1 + bc1, 0) · Wc2 + bc2) = logSoftmax (dense (biasClamp (dense p Wc1) bc1) Wc2) bc2

  The reference's log-softmax takes the row maximum as a fold from −∞ and then once more the maximum of −∞ and that; the
  second maximum changes nothing, −∞ being the least extended real.
-/
import proofs.«138659_j53807350284438_1_alg».proof.Proof.ReadP
import proofs.«138659_j53807350284438_1_alg».proof.Proof.LibRowSteps
import Idealize.ShloMosaic.PureOps.Reduce

noncomputable section

namespace Cert.RefStages

open Cert.ReferenceIdeal Cert.ReferenceIdeal.ReadP Idealize.ShloMosaic Idealize.ShloMosaic.ValueIdx Cert.Gcn

/-- The contents of an array of the reference over the extended reals. -/
abbrev Arr (s : Shape) (e : EltTy) : Type := (⟨s, e⟩ : BufTy).Contents (Elt Ideal)

variable (x0 : Arr S100000x128 .f32) (x1 : Arr S2x1600000 .i32) (x2 : Arr S100000 .i32) (x3 : Arr S128x64 .f32)
  (x4 : Arr S64 .f32) (x5 : Arr S64x128 .f32) (x6 : Arr S128 .f32) (x7 : Arr S128x128 .f32) (x8 : Arr S128 .f32)
  (x9 : Arr S128x64 .f32) (x10 : Arr S64 .f32) (x11 : Arr S64x10 .f32) (x12 : Arr S10 .f32)

/-- An index of a rank-2 array is the pair of its coordinates. -/
theorem pair_eq {a b : ℕ} (u : Fin a) (v : Fin b) (j : (⟨2, ![a, b]⟩ : Shape).Idx) (h0 : (j 0).val = u.val)
    (h1 : (j 1).val = v.val) : j = ix2 u v :=
  funext fun d => Fin.ext (by match d with | ⟨0, _⟩ => exact h0 | ⟨1, _⟩ => exact h1)

/-- The first feature transform. -/
theorem v31_eq : val_main_v31 (F := Ideal) x0 x3 = dense (n := 100000) (k := 128) (c := 64) x0 x3 := by
  funext i
  obtain ⟨p, q, rfl⟩ : ∃ (p : Fin 100000) (q : Fin 64), i = ix2 p q := ⟨i 0, i 1, eq_ix2 i⟩
  rw [val_main_v31_apply, dense_apply]
  refine Finset.sum_congr rfl fun k _ => ?_
  rw [pair_eq p k (lidx_main_v31 (ix2 p q) k) rfl rfl, pair_eq k q (ridx_main_v31 (ix2 p q) k) rfl rfl]

/-- The first layer's bias and clamp, then the second feature transform. -/
theorem v49_eq : val_main_v49 (F := Ideal) x0 x1 x3 x4 x5
    = dense (n := 100000) (k := 64) (c := 128) (biasClamp (n := 100000) (c := 64) (val_main_v44 (F := Ideal) x0 x1 x3) (val_main_v45 (F := Ideal) x4)) x5 := by
  funext i
  obtain ⟨p, q, rfl⟩ : ∃ (p : Fin 100000) (q : Fin 128), i = ix2 p q := ⟨i 0, i 1, eq_ix2 i⟩
  rw [val_main_v49_apply, dense_apply]
  refine Finset.sum_congr rfl fun k _ => ?_
  rw [pair_eq p k (lidx_main_v49 (ix2 p q) k) rfl rfl, pair_eq k q (ridx_main_v49 (ix2 p q) k) rfl rfl,
    val_main_v48_apply, val_main_v47_apply, val_main_v46_apply, val_main_call1_v0_apply, biasClamp_apply,
    pair_eq (0 : Fin 1) k (idx_main_v46 (ix2 p k)) rfl rfl]
  rfl

/-- The second layer's bias and clamp, then the third feature transform. -/
theorem v67_eq : val_main_v67 (F := Ideal) x0 x1 x3 x4 x5 x6 x7
    = dense (n := 100000) (k := 128) (c := 128) (biasClamp (n := 100000) (c := 128) (val_main_v62 (F := Ideal) x0 x1 x3 x4 x5) (val_main_v63 (F := Ideal) x6)) x7 := by
  funext i
  obtain ⟨p, q, rfl⟩ : ∃ (p : Fin 100000) (q : Fin 128), i = ix2 p q := ⟨i 0, i 1, eq_ix2 i⟩
  rw [val_main_v67_apply, dense_apply]
  refine Finset.sum_congr rfl fun k _ => ?_
  rw [pair_eq p k (lidx_main_v67 (ix2 p q) k) rfl rfl, pair_eq k q (ridx_main_v67 (ix2 p q) k) rfl rfl,
    val_main_v66_apply, val_main_v65_apply, val_main_v64_apply, val_main_call2_v0_apply, biasClamp_apply,
    pair_eq (0 : Fin 1) k (idx_main_v64 (ix2 p k)) rfl rfl]
  rfl

/-- The third layer's bias and clamp. -/
theorem v84_eq : val_main_v84 (F := Ideal) x0 x1 x3 x4 x5 x6 x7 x8 = biasClamp (n := 100000) (c := 128) (val_main_v80 (F := Ideal) x0 x1 x3 x4 x5 x6 x7) (val_main_v81 (F := Ideal) x8) := by
  funext i
  obtain ⟨p, q, rfl⟩ : ∃ (p : Fin 100000) (q : Fin 128), i = ix2 p q := ⟨i 0, i 1, eq_ix2 i⟩
  rw [val_main_v84_apply, val_main_v83_apply, val_main_v82_apply, val_main_call3_v0_apply, biasClamp_apply,
    pair_eq (0 : Fin 1) q (idx_main_v82 (ix2 p q)) rfl rfl]
  rfl

/-- The classifier's hidden layer: the pooled features' transform, bias, clamp. -/
theorem v101_eq : val_main_v101 (F := Ideal) x0 x1 x2 x3 x4 x5 x6 x7 x8 x9 x10
    = biasClamp (n := 512) (c := 64) (dense (n := 512) (k := 128) (c := 64) (val_main_v96 (F := Ideal) x0 x1 x2 x3 x4 x5 x6 x7 x8) x9) (val_main_v98 (F := Ideal) x10) := by
  funext i
  obtain ⟨p, q, rfl⟩ : ∃ (p : Fin 512) (q : Fin 64), i = ix2 p q := ⟨i 0, i 1, eq_ix2 i⟩
  rw [val_main_v101_apply, val_main_v100_apply, val_main_v99_apply, val_main_call4_v0_apply, val_main_v97_apply,
    biasClamp_apply, dense_apply, pair_eq (0 : Fin 1) q (idx_main_v99 (ix2 p q)) rfl rfl]
  have e : ∀ k : Fin 128, (val_main_v96 (F := Ideal) x0 x1 x2 x3 x4 x5 x6 x7 x8) (lidx_main_v97 (ix2 p q) k) * x9 (ridx_main_v97 (ix2 p q) k)
      = (val_main_v96 (F := Ideal) x0 x1 x2 x3 x4 x5 x6 x7 x8) (ix2 p k) * x9 (ix2 k q) := fun k => by
    rw [pair_eq p k (lidx_main_v97 (ix2 p q) k) rfl rfl, pair_eq k q (ridx_main_v97 (ix2 p q) k) rfl rfl]
  rw [Finset.sum_congr rfl fun k _ => e k]
  rfl

/-- The logits, at an entry: the hidden layer's transform plus the bias row. -/
theorem v105_apply' (p : Fin 512) (q : Fin 10) : (val_main_v105 (F := Ideal) x0 x1 x2 x3 x4 x5 x6 x7 x8 x9 x10 x11 x12) (ix2 p q)
    = shifted (n := 512) (c := 10) (dense (n := 512) (k := 64) (c := 10) (val_main_v101 (F := Ideal) x0 x1 x2 x3 x4 x5 x6 x7 x8 x9 x10) x11) (val_main_v103 (F := Ideal) x12) p q := by
  rw [val_main_v105_apply, val_main_v104_apply, val_main_v102_apply,
    pair_eq (0 : Fin 1) q (idx_main_v104 (ix2 p q)) rfl rfl]
  have e : ∀ k : Fin 64, (val_main_v101 (F := Ideal) x0 x1 x2 x3 x4 x5 x6 x7 x8 x9 x10) (lidx_main_v102 (ix2 p q) k) * x11 (ridx_main_v102 (ix2 p q) k)
      = (val_main_v101 (F := Ideal) x0 x1 x2 x3 x4 x5 x6 x7 x8 x9 x10) (ix2 p k) * x11 (ix2 k q) := fun k => by
    rw [pair_eq p k (lidx_main_v102 (ix2 p q) k) rfl rfl, pair_eq k q (ridx_main_v102 (ix2 p q) k) rfl rfl]
  rw [Finset.sum_congr rfl fun k _ => e k]
  rfl

end Cert.RefStages

end
-- ==== Proof.LibBiasRow.lean ====
/-
  A reusable lemma: a vector viewed as a one-row matrix, read at an entry.

  A bias of length b reaches a tiled kernel as a [1, b] row: the host reshapes the vector. Read at (u, q) the row is the
  vector at q (u can only be 0). Generic in the length and the element type.
-/
import Idealize.ShloMosaic.Lib.Pipeline.Value
import Idealize.ShloMosaic.Lib.ValueIdx

noncomputable section

namespace Cert.BiasRow

open Idealize.ShloMosaic Idealize.ShloMosaic.ValueIdx

/-- A [b] array cast to [1, b] reads, at (u, q), the operand at q. -/
theorem rowOf_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end Cert.BiasRow

end
-- ==== Proof.ChainB.lean ====
/-
  The three graph-convolution layers along the kernel's program.

  After each tiled region the kernel's program gathers the region's output at the source indices, scales the rows by the
  edge weights and scatter-adds them at the destination indices — the same host operations, in the same order, as the
  reference applies to its own feature transform. Since each region's output array is the reference's stage (the
  whole-array feature transform, or bias-clamp-transform, of the arrays it was entered with), the kernel's buffers hold
  the reference's stages at every boundary: `val_main_v31` … `val_main_v84`.
-/
import proofs.«138659_j53807350284438_1_alg».proof.Proof.ChainCarry
import proofs.«138659_j53807350284438_1_alg».proof.Proof.ChainA
import proofs.«138659_j53807350284438_1_alg».proof.Proof.Region0
import proofs.«138659_j53807350284438_1_alg».proof.Proof.Region1
import proofs.«138659_j53807350284438_1_alg».proof.Proof.Region2
import proofs.«138659_j53807350284438_1_alg».proof.Proof.Region3
import proofs.«138659_j53807350284438_1_alg».proof.Proof.RefStages
import proofs.«138659_j53807350284438_1_alg».proof.Proof.LibBiasRow
import Idealize.ShloMosaic.Lib.StableHlo.Run
import Idealize.ShloMosaic.Lib.Pipeline.Value

set_option maxRecDepth 16384
set_option quotPrecheck false

noncomputable section

namespace Cert.KernelIdeal.ChainB

open Cert.KernelIdeal Cert.KernelIdeal.Gen Cert.KernelIdeal.Chain Idealize.ShloMosaic Idealize.ShloMosaic.TcCoe
open Idealize.SL.Sem Idealize.ShloMosaic.StableHlo Idealize.ShloMosaic.ValueIdx Cert.Gcn
open Cert.ReferenceIdeal.ReadP Cert.KernelIdeal.ChainA

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)

/-- Region 0's output: the first feature transform. -/
theorem t1_at4 : W4 m ρ c (Proc.devRef .tc main_v31) = val_main_v31 (F := Ideal) x0 x3 := by
  refine (W4_arr m ρ c 2).trans ?_
  refine (Region0.value (V3 m ρ) c).trans ?_
  rw [Cert.RefStages.v31_eq]
  exact congr (congrArg (dense (n := 100000) (k := 128) (c := 64)) (arg0_3 m ρ c)) (arg3_3 m ρ c)

/-- The first aggregation: gather at the sources, scale by the edge weights, scatter-add at the destinations. -/
theorem agg1_at5 : W5 m ρ c (Proc.devRef .tc main_v44) = val_main_v44 (F := Ideal) x0 x1 x3 := by
  show StableHlo.after hostOps1 (W4 m ρ c) (Proc.devRef .tc main_v44) = _
  unfold hostOps1
  after_results_simp
  rw [(v7_4 m ρ c).trans (dst_at3 m ρ c), (v30_4 m ρ c).trans (norm_at3 m ρ c),
    (v3_4 m ρ c).trans (src_at3 m ρ c), t1_at4 m ρ c]
  rfl

/-- The first bias as a row. -/
theorem bias1_at5 : W5 m ρ c (Proc.devRef .tc main_v45) = val_main_v45 (F := Ideal) x4 := by
  show StableHlo.after hostOps1 (W4 m ρ c) (Proc.devRef .tc main_v45) = _
  unfold hostOps1
  after_results_simp
  rw [arg4_4 m ρ c]
  funext i
  obtain ⟨u, q, rfl⟩ : ∃ (u : Fin 1) (q : Fin 64), i = ix2 u q := ⟨i 0, i 1, eq_ix2 i⟩
  rw [val_main_v45_apply]
  refine (Cert.BiasRow.rowOf_apply (m ((c.tc : Thread nD τ).loc main_arg4)) _ u q).trans ?_
  exact congrArg _ (funext fun a => Fin.ext (by match a with | ⟨0, _⟩ => rfl))

/-- Region 1's output: the first layer's bias and clamp, then the second feature transform. -/
theorem t2_at6 : W6 m ρ c (Proc.devRef .tc main_v46) = val_main_v49 (F := Ideal) x0 x1 x3 x4 x5 := by
  refine (W6_arr m ρ c 3).trans ?_
  refine (Region1.value (V5 m ρ) c).trans ?_
  rw [Cert.RefStages.v49_eq]
  exact congr (congrArg (dense (n := 100000) (k := 64) (c := 128))
    (congr (congrArg (biasClamp (n := 100000) (c := 64)) (agg1_at5 m ρ c)) (bias1_at5 m ρ c))) (arg5_5 m ρ c)

/-- The second aggregation. -/
theorem agg2_at7 : W7 m ρ c (Proc.devRef .tc main_v59) = val_main_v62 (F := Ideal) x0 x1 x3 x4 x5 := by
  show StableHlo.after hostOps2 (W6 m ρ c) (Proc.devRef .tc main_v59) = _
  unfold hostOps2
  after_results_simp
  rw [(v7_6 m ρ c).trans (dst_at3 m ρ c), (v30_6 m ρ c).trans (norm_at3 m ρ c),
    (v3_6 m ρ c).trans (src_at3 m ρ c), t2_at6 m ρ c]
  rfl

/-- The second bias as a row. -/
theorem bias2_at7 : W7 m ρ c (Proc.devRef .tc main_v60) = val_main_v63 (F := Ideal) x6 := by
  show StableHlo.after hostOps2 (W6 m ρ c) (Proc.devRef .tc main_v60) = _
  unfold hostOps2
  after_results_simp
  rw [arg6_6 m ρ c]
  funext i
  obtain ⟨u, q, rfl⟩ : ∃ (u : Fin 1) (q : Fin 128), i = ix2 u q := ⟨i 0, i 1, eq_ix2 i⟩
  rw [val_main_v63_apply]
  refine (Cert.BiasRow.rowOf_apply (m ((c.tc : Thread nD τ).loc main_arg6)) _ u q).trans ?_
  exact congrArg _ (funext fun a => Fin.ext (by match a with | ⟨0, _⟩ => rfl))

/-- Region 2's output: the second layer's bias and clamp, then the third feature transform. -/
theorem t3_at8 : W8 m ρ c (Proc.devRef .tc main_v61) = val_main_v67 (F := Ideal) x0 x1 x3 x4 x5 x6 x7 := by
  refine (W8_arr m ρ c 3).trans ?_
  refine (Region2.value (V7 m ρ) c).trans ?_
  rw [Cert.RefStages.v67_eq]
  exact congr (congrArg (dense (n := 100000) (k := 128) (c := 128))
    (congr (congrArg (biasClamp (n := 100000) (c := 128)) (agg2_at7 m ρ c)) (bias2_at7 m ρ c))) (arg7_7 m ρ c)

/-- The third aggregation. -/
theorem agg3_at9 : W9 m ρ c (Proc.devRef .tc main_v74) = val_main_v80 (F := Ideal) x0 x1 x3 x4 x5 x6 x7 := by
  show StableHlo.after hostOps3 (W8 m ρ c) (Proc.devRef .tc main_v74) = _
  unfold hostOps3
  after_results_simp
  rw [(v7_8 m ρ c).trans (dst_at3 m ρ c), (v30_8 m ρ c).trans (norm_at3 m ρ c),
    (v3_8 m ρ c).trans (src_at3 m ρ c), t3_at8 m ρ c]
  rfl

/-- The third bias as a row. -/
theorem bias3_at9 : W9 m ρ c (Proc.devRef .tc main_v75) = val_main_v81 (F := Ideal) x8 := by
  show StableHlo.after hostOps3 (W8 m ρ c) (Proc.devRef .tc main_v75) = _
  unfold hostOps3
  after_results_simp
  rw [arg8_8 m ρ c]
  funext i
  obtain ⟨u, q, rfl⟩ : ∃ (u : Fin 1) (q : Fin 128), i = ix2 u q := ⟨i 0, i 1, eq_ix2 i⟩
  rw [val_main_v81_apply]
  refine (Cert.BiasRow.rowOf_apply (m ((c.tc : Thread nD τ).loc main_arg8)) _ u q).trans ?_
  exact congrArg _ (funext fun a => Fin.ext (by match a with | ⟨0, _⟩ => rfl))

/-- Region 3's output: the third layer's bias and clamp — the node embeddings. -/
theorem h3_at10 : W10 m ρ c (Proc.devRef .tc main_v76) = val_main_v84 (F := Ideal) x0 x1 x3 x4 x5 x6 x7 x8 := by
  refine (W10_arr m ρ c 2).trans ?_
  refine (Region3.value (V9 m ρ) c).trans ?_
  rw [Cert.RefStages.v84_eq]
  exact congr (congrArg (biasClamp (n := 100000) (c := 128)) (agg3_at9 m ρ c)) (bias3_at9 m ρ c)

end Cert.KernelIdeal.ChainB

end
-- ==== Proof.Region4.lean ====
/-
  Region 4: the classifier and the row log-softmax, in one block.

  The grid has one point; its blocks are the whole arrays: the pooled features [512, 128], the two weight matrices, the
  two biases as rows. The body is a two-layer classifier followed by the log-softmax of every row, so after the region the
  output array is `logSoftmax (dense (biasClamp (dense pooled Wc1) bc1) Wc2) bc2` of the arrays the region was entered
  with.
-/
import proofs.«138659_j53807350284438_1_alg».proof.Proof.Gen.KernelIdeal.Frame
import proofs.«138659_j53807350284438_1_alg».proof.Proof.LibLayerBlocks
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The classifier of whole arrays. -/
abbrev classify (x : Mat 512 128) (w1 : Mat 128 64) (b1 : Mat 1 64) (w2 : Mat 64 10) (b2 : Mat 1 10) : Mat 512 10 :=
  logSoftmax (n := 512) (c := 10) (dense (n := 512) (k := 64) (c := 10)
    (biasClamp (n := 512) (c := 64) (dense (n := 512) (k := 128) (c := 64) x w1) b1) w2) b2

/-- The body's stored value at an entry. -/
theorem pay_entry (x : Vec Ideal S512x128 .f32) (w1 : Vec Ideal S128x64 .f32) (b1 : Vec Ideal S1x64 .f32)
    (w2 : Vec Ideal S64x10 .f32) (b2 : Vec Ideal S1x10 .f32) (p : Fin 512) (q : Fin 10) :
    k4_pay1 x w1 b1 w2 b2 (ix2 p q) = classify x w1 b1 w2 b2 (ix2 p q) := by
  unfold k4_pay1
  exact Cert.LayerBlocks.classifier_apply (K := 128) (G := 512) (H := 64) (C := 10) _ rfl _ rfl none x w1 b1 w2 b2
    _ _ _ _ _ _ _ _ _ _ _ _ _ rfl p q

/-- The one point's block indices are all zero. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

set_option maxHeartbeats 4000000 in
/-- What the point writes back is the classifier of the whole arrays, read through the (whole) block. -/
theorem flushed_eq (c : Dev nD) (t : Fin cfg4.N) :
    (dat4 V c).flushed 5 t = ((cfg4.win 5).blk t).view.read (Elt Ideal)
      (classify (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero hz]
  simp only [View.ld_unit_zero (S := S512x128) hz, View.ld_unit_zero (S := S128x64) hz, View.ld_unit_zero (S := S1x64) hz,
    View.ld_unit_zero (S := S64x10) hz, View.ld_unit_zero (S := S1x10) hz]
  obtain ⟨e0, e1, e2, e3, e4, e5, e6, e7, e8, e9, e10, e11⟩ := idx_facts t
  have b0 : ∀ j : S512x128.Idx, iblk4 V c 0 t j = V c (Pipeline.arrRef spec4 0) j := fun j => by
    show V c (Pipeline.arrRef spec4 0) (((cfg4.win 0).blk t).view.emb j) = _
    refine congrArg _ (funext fun a => Fin.ext ?_)
    match a with
    | ⟨0, _⟩ => show win4_0.index t (0 : Fin 2) * 512 + 1 * (j 0).val = (j 0).val; omega
    | ⟨1, _⟩ => show win4_0.index t (1 : Fin 2) * 128 + 1 * (j 1).val = (j 1).val; omega
  have b1 : ∀ j : S128x64.Idx, iblk4 V c 1 t j = V c (Pipeline.arrRef spec4 1) j := fun j => by
    show V c (Pipeline.arrRef spec4 1) (((cfg4.win 1).blk t).view.emb j) = _
    refine congrArg _ (funext fun a => Fin.ext ?_)
    match a with
    | ⟨0, _⟩ => show win4_1.index t (0 : Fin 2) * 128 + 1 * (j 0).val = (j 0).val; omega
    | ⟨1, _⟩ => show win4_1.index t (1 : Fin 2) * 64 + 1 * (j 1).val = (j 1).val; omega
  have b2 : ∀ j : S1x64.Idx, iblk4 V c 2 t j = V c (Pipeline.arrRef spec4 2) j := fun j => by
    show V c (Pipeline.arrRef spec4 2) (((cfg4.win 2).blk t).view.emb j) = _
    refine congrArg _ (funext fun a => Fin.ext ?_)
    match a with
    | ⟨0, _⟩ => show win4_2.index t (0 : Fin 2) * 1 + 1 * (j 0).val = (j 0).val; omega
    | ⟨1, _⟩ => show win4_2.index t (1 : Fin 2) * 64 + 1 * (j 1).val = (j 1).val; omega
  have b3 : ∀ j : S64x10.Idx, iblk4 V c 3 t j = V c (Pipeline.arrRef spec4 3) j := fun j => by
    show V c (Pipeline.arrRef spec4 3) (((cfg4.win 3).blk t).view.emb j) = _
    refine congrArg _ (funext fun a => Fin.ext ?_)
    match a with
    | ⟨0, _⟩ => show win4_3.index t (0 : Fin 2) * 64 + 1 * (j 0).val = (j 0).val; omega
    | ⟨1, _⟩ => show win4_3.index t (1 : Fin 2) * 10 + 1 * (j 1).val = (j 1).val; omega
  have b4 : ∀ j : S1x10.Idx, iblk4 V c 4 t j = V c (Pipeline.arrRef spec4 4) j := fun j => by
    show V c (Pipeline.arrRef spec4 4) (((cfg4.win 4).blk t).view.emb j) = _
    refine congrArg _ (funext fun a => Fin.ext ?_)
    match a with
    | ⟨0, _⟩ => show win4_4.index t (0 : Fin 2) * 1 + 1 * (j 0).val = (j 0).val; omega
    | ⟨1, _⟩ => show win4_4.index t (1 : Fin 2) * 10 + 1 * (j 1).val = (j 1).val; omega
  funext j
  obtain ⟨p, q, rfl⟩ : ∃ (p : Fin 512) (q : Fin 10), j = ix2 p q := ⟨j 0, j 1, eq_ix2 j⟩
  refine (pay_entry (iblk4 V c 0 t) (iblk4 V c 1 t) (iblk4 V c 2 t) (iblk4 V c 3 t) (iblk4 V c 4 t) p q).trans ?_
  have hj : ((cfg4.win 5).blk t).view.emb (ix2 p q) = ix2 p q := by
    refine funext fun a => Fin.ext ?_
    match a with
    | ⟨0, _⟩ => show win4_5.index t (0 : Fin 2) * 512 + 1 * p.val = p.val; omega
    | ⟨1, _⟩ => show win4_5.index t (1 : Fin 2) * 10 + 1 * q.val = q.val; omega
  show _ = classify _ _ _ _ _ (((cfg4.win 5).blk t).view.emb (ix2 p q))
  rw [hj, show (iblk4 V c 0 t : Mat 512 128) = V c (Pipeline.arrRef spec4 0) from funext b0,
    show (iblk4 V c 1 t : Mat 128 64) = V c (Pipeline.arrRef spec4 1) from funext b1,
    show (iblk4 V c 2 t : Mat 1 64) = V c (Pipeline.arrRef spec4 2) from funext b2,
    show (iblk4 V c 3 t : Mat 64 10) = V c (Pipeline.arrRef spec4 3) from funext b3,
    show (iblk4 V c 4 t : Mat 1 10) = V c (Pipeline.arrRef spec4 4) from funext b4]

/-- The one block is the whole output array. -/
theorem cover (i : S512x10.Idx) :
    ∃ t : Fin cfg4.N, (cfg4.win 5).flush t = true ∧ i ∈ ((cfg4.win 5).blk t).view.set := by
  have hi0 : (i 0).val < 512 := (i 0).isLt
  have hi1 : (i 1).val < 10 := (i 1).isLt
  obtain ⟨e0, e1, e2, e3, e4, e5, e6, e7, e8, e9, e10, e11⟩ := idx_facts t4_0
  refine ⟨t4_0, flush4_5 t4_0, ?_⟩
  show i ∈ ((View.whole main_v91).slice (win4_5.rect t4_0)).set
  rw [View.set_slice_whole, Rect.mem_set_unit]
  intro a
  match a with
  | ⟨0, _⟩ => show win4_5.index t4_0 (0 : Fin 2) * 512 ≤ (i 0).val ∧ (i 0).val < win4_5.index t4_0 (0 : Fin 2) * 512 + 512; omega
  | ⟨1, _⟩ => show win4_5.index t4_0 (1 : Fin 2) * 10 ≤ (i 1).val ∧ (i 1).val < win4_5.index t4_0 (1 : Fin 2) * 10 + 10; omega

/-- After the region its output array is the classifier of the arrays it was entered with. -/
theorem value (c : Dev nD) : (dat4 V c).arrAt 5 cfg4.N
    = classify (V c (Pipeline.arrRef spec4 0)) (V c (Pipeline.arrRef spec4 1)) (V c (Pipeline.arrRef spec4 2))
        (V c (Pipeline.arrRef spec4 3)) (V c (Pipeline.arrRef spec4 4)) :=
  (dat4 V c).arrAt_eq_of_cover 5 _ (fun t _ => flushed_eq V c t) cover

end Cert.KernelIdeal.Region4

end
-- ==== Proof.RefSoftmax.lean ====
/-
  The reference's classifier and log-softmax as one whole-array step.

  The reference's last stage takes the logits L (the hidden layer's transform plus a bias row) and returns, row by row,
  (L − M) − log Σ_j exp (L_j − M), with M the row maximum: a host reduction by max from −∞ over the row, then once more the
  maximum of −∞ and that (which changes nothing, −∞ being the least extended real), kept as a column and spread back; the
  row sum of the exponentials is a host sum from zero. Read at an entry this is `Cert.Gcn.logSoftmax` of the hidden
  layer's transform and the bias row.
-/
import proofs.«138659_j53807350284438_1_alg».proof.Proof.RefStages
import proofs.«138659_j53807350284438_1_alg».proof.Proof.LibSlabLayout
import Idealize.ShloMosaic.PureOps.Reduce
import Idealize.ShloMosaic.PureOps.Ideal.Laws

set_option maxRecDepth 16384

noncomputable section

namespace Cert.RefStages

open Cert.ReferenceIdeal Cert.ReferenceIdeal.Gen Cert.ReferenceIdeal.ReadP Idealize.ShloMosaic Idealize.ShloMosaic.ValueIdx Cert.Gcn

variable (x0 : Arr S100000x128 .f32) (x1 : Arr S2x1600000 .i32) (x2 : Arr S100000 .i32) (x3 : Arr S128x64 .f32)
  (x4 : Arr S64 .f32) (x5 : Arr S64x128 .f32) (x6 : Arr S128 .f32) (x7 : Arr S128x128 .f32) (x8 : Arr S128 .f32)
  (x9 : Arr S128x64 .f32) (x10 : Arr S64 .f32) (x11 : Arr S64x10 .f32) (x12 : Arr S10 .f32)

/-- The reference's row maximum of the logits: the fold of max from −∞ over the row. -/
theorem rowmax_apply (p : Fin 512) : (val_main_call5_v0 (F := Ideal) x0 x1 x2 x3 x4 x5 x6 x7 x8 x9 x10 x11 x12) (ix1 p)
    = rowMax (c := 10) (fun j => (val_main_v105 (F := Ideal) x0 x1 x2 x3 x4 x5 x6 x7 x8 x9 x10 x11 x12) (ix2 p j)) := by
  unfold val_main_call5_v0
  generalize val_main_v105 (F := Ideal) x0 x1 x2 x3 x4 x5 x6 x7 x8 x9 x10 x11 x12 = L
  have h : (S512x10 : Shape).Reduces [(1 : Fin 2)] S512 := by decide
  refine (Host.reduce_eq_fold_single (α := Ideal .f32) (FloatOps.maximumf (F := Ideal) (φ := .f32)) L
    (val_main_call5_cst (F := Ideal)) reducesTo_S512x10_S512_d1 h h_S_ (ix1 p)).trans ?_
  have e : (L ∘ h.lift (ix1 p)) = fun j => L (ix2 p j) := funext fun k => congrArg L (Cert.SlabLayout.lift_row h p k)
  rw [e]
  rfl

/-- The maximum spread back over the row: every entry of row p sees the row's maximum. -/
theorem spreadmax_apply (p : Fin 512) (j : Fin 10) : (val_main_call5_v4 (F := Ideal) x0 x1 x2 x3 x4 x5 x6 x7 x8 x9 x10 x11 x12) (ix2 p j)
    = rowMax (c := 10) (fun j => (val_main_v105 (F := Ideal) x0 x1 x2 x3 x4 x5 x6 x7 x8 x9 x10 x11 x12) (ix2 p j)) := by
  rw [val_main_call5_v4_apply, val_main_call5_v3_apply, val_main_call5_v2_apply, val_main_call5_v1_apply]
  have e : idx_main_call5_v3 (idx_main_call5_v4 (ix2 p j)) = ix1 p :=
    funext fun a => Fin.ext (by match a with | ⟨0, _⟩ => rfl)
  rw [e, rowmax_apply]
  exact max_eq_right ((Finset.le_fold_max _).mpr (Or.inl le_rfl))

/-- The reference's result is the classifier's whole-array step of the pooled features. -/
theorem v106_eq : val_main_v106 (F := Ideal) x0 x1 x2 x3 x4 x5 x6 x7 x8 x9 x10 x11 x12
    = logSoftmax (n := 512) (c := 10) (dense (n := 512) (k := 64) (c := 10)
        (biasClamp (n := 512) (c := 64) (dense (n := 512) (k := 128) (c := 64) (val_main_v96 (F := Ideal) x0 x1 x2 x3 x4 x5 x6 x7 x8) x9) (val_main_v98 (F := Ideal) x10)) x11)
        (val_main_v103 (F := Ideal) x12) := by
  funext i
  obtain ⟨p, q, rfl⟩ : ∃ (p : Fin 512) (q : Fin 10), i = ix2 p q := ⟨i 0, i 1, eq_ix2 i⟩
  rw [logSoftmax_apply, ← v101_eq x0 x1 x2 x3 x4 x5 x6 x7 x8 x9 x10]
  have hrow : shifted (n := 512) (c := 10) (dense (n := 512) (k := 64) (c := 10) (val_main_v101 (F := Ideal) x0 x1 x2 x3 x4 x5 x6 x7 x8 x9 x10) x11) (val_main_v103 (F := Ideal) x12) p
      = fun j => (val_main_v105 (F := Ideal) x0 x1 x2 x3 x4 x5 x6 x7 x8 x9 x10 x11 x12) (ix2 p j) := funext fun j => (v105_apply' x0 x1 x2 x3 x4 x5 x6 x7 x8 x9 x10 x11 x12 p j).symm
  rw [hrow]
  have hs : ∀ k : Fin 10, (val_main_call5_v6 (F := Ideal) x0 x1 x2 x3 x4 x5 x6 x7 x8 x9 x10 x11 x12)
        (idx_main_call5_v7 (idx_main_call5_v8 (idx_main_call5_v10 (ix2 p q))) k)
      = Ideal.exp ((val_main_v105 (F := Ideal) x0 x1 x2 x3 x4 x5 x6 x7 x8 x9 x10 x11 x12) (ix2 p k) - rowMax (c := 10) (fun j => (val_main_v105 (F := Ideal) x0 x1 x2 x3 x4 x5 x6 x7 x8 x9 x10 x11 x12) (ix2 p j))) := fun k => by
    have e : idx_main_call5_v7 (idx_main_call5_v8 (idx_main_call5_v10 (ix2 p q))) k = ix2 p k := pair_eq p k _ rfl rfl
    rw [e]
    rw [val_main_call5_v6_apply]
    rw [val_main_call5_v5_apply]
    rw [spreadmax_apply, Ideal.hostUnary_exp_def, Ideal.subf_def]
  have h0 : (val_main_call5_cst_1 (F := Ideal)) (Shape.Idx.first h_S_) = 0 := Ideal.ofBits_zero_f32
  rw [val_main_v106_apply]
  rw [val_main_call5_v5_apply]
  rw [spreadmax_apply]
  rw [val_main_call5_v10_apply]
  rw [val_main_call5_v9_apply]
  rw [val_main_call5_v8_apply]
  rw [val_main_call5_v7_apply]
  rw [Finset.sum_congr rfl fun k _ => hs k]
  rw [h0, zero_add, Ideal.hostUnary_log_def, Ideal.subf_def, Ideal.subf_def]
  rfl

end Cert.RefStages

end
-- ==== Proof.ChainC.lean ====
/-
  Pooling and the classifier along the kernel's program.

  After the last tiled layer the kernel's program scatter-adds the node embeddings by graph, divides by the clamped graph
  sizes, and hands the pooled features, the classifier's weights and its two biases (as rows) to the last region, whose
  output is the whole-array classifier of what it was entered with. These are the reference's operations in the
  reference's order: the kernel's result buffer ends at the reference's last stage, `val_main_v106`, of the arguments.
-/
import proofs.«138659_j53807350284438_1_alg».proof.Proof.ChainCarry
import proofs.«138659_j53807350284438_1_alg».proof.Proof.ChainB
import proofs.«138659_j53807350284438_1_alg».proof.Proof.Region4
import proofs.«138659_j53807350284438_1_alg».proof.Proof.RefStages
import proofs.«138659_j53807350284438_1_alg».proof.Proof.RefSoftmax
import proofs.«138659_j53807350284438_1_alg».proof.Proof.LibBiasRow
import Idealize.ShloMosaic.Lib.StableHlo.Run
import Idealize.ShloMosaic.Lib.Pipeline.Value

set_option maxRecDepth 16384
set_option quotPrecheck false

noncomputable section

namespace Cert.KernelIdeal.ChainC

open Cert.KernelIdeal Cert.KernelIdeal.Gen Cert.KernelIdeal.Chain Idealize.ShloMosaic Idealize.ShloMosaic.TcCoe
open Idealize.SL.Sem Idealize.ShloMosaic.StableHlo Idealize.ShloMosaic.ValueIdx Cert.Gcn
open Cert.ReferenceIdeal.ReadP Cert.KernelIdeal.ChainB

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)

/-- The pooled features at the last region's entry: per-graph sums of the embeddings over the clamped graph sizes. -/
theorem pooled_at11 : W11 m ρ c (Proc.devRef .tc main_v88) = val_main_v96 (F := Ideal) x0 x1 x2 x3 x4 x5 x6 x7 x8 := by
  show StableHlo.after hostOps4 (W10 m ρ c) (Proc.devRef .tc main_v88) = _
  unfold hostOps4
  after_results_simp
  rw [h3_at10 m ρ c, arg2_10 m ρ c]
  rfl

/-- The classifier's first bias as a row. -/
theorem bc1_at11 : W11 m ρ c (Proc.devRef .tc main_v89) = val_main_v98 (F := Ideal) x10 := by
  show StableHlo.after hostOps4 (W10 m ρ c) (Proc.devRef .tc main_v89) = _
  unfold hostOps4
  after_results_simp
  rw [arg10_10 m ρ c]
  funext i
  obtain ⟨u, q, rfl⟩ : ∃ (u : Fin 1) (q : Fin 64), i = ix2 u q := ⟨i 0, i 1, eq_ix2 i⟩
  rw [val_main_v98_apply]
  refine (Cert.BiasRow.rowOf_apply (m ((c.tc : Thread nD τ).loc main_arg10)) _ u q).trans ?_
  exact congrArg _ (funext fun a => Fin.ext (by match a with | ⟨0, _⟩ => rfl))

/-- The classifier's second bias as a row. -/
theorem bc2_at11 : W11 m ρ c (Proc.devRef .tc main_v90) = val_main_v103 (F := Ideal) x12 := by
  show StableHlo.after hostOps4 (W10 m ρ c) (Proc.devRef .tc main_v90) = _
  unfold hostOps4
  after_results_simp
  rw [arg12_10 m ρ c]
  funext i
  obtain ⟨u, q, rfl⟩ : ∃ (u : Fin 1) (q : Fin 10), i = ix2 u q := ⟨i 0, i 1, eq_ix2 i⟩
  rw [val_main_v103_apply]
  refine (Cert.BiasRow.rowOf_apply (m ((c.tc : Thread nD τ).loc main_arg12)) _ u q).trans ?_
  exact congrArg _ (funext fun a => Fin.ext (by match a with | ⟨0, _⟩ => rfl))

/-- The kernel's result buffer at the last boundary is the reference's result stage of the arguments. -/
theorem out_at12 : W12 m ρ c (Proc.devRef .tc main_v91) = val_main_v106 (F := Ideal) x0 x1 x2 x3 x4 x5 x6 x7 x8 x9 x10 x11 x12 := by
  refine (W12_arr m ρ c 5).trans ?_
  refine (Region4.value (V11 m ρ) c).trans ?_
  rw [Cert.RefStages.v106_eq]
  exact congr (congr (congr (congr (congrArg Region4.classify (pooled_at11 m ρ c)) (arg9_11 m ρ c)) (bc1_at11 m ρ c))
    (arg11_11 m ρ c)) (bc2_at11 m ρ c)

end Cert.KernelIdeal.ChainC

end
-- ==== Proof.lean ====
/-
  The certificate: a three-layer graph convolutional network with mean pooling, a two-layer classifier and a row
  log-softmax, as a kernel program of five tiled regions against its plain reference, over the extended reals.

  Both programs normalise the graph (self loops, D^-1/2 A D^-1/2 edge weights) and aggregate by gather, scale and
  scatter-add with the same host operations. They differ in how the dense steps are spelt. The kernel's program tiles the
  feature transforms over blocks of 5000 rows on the matrix unit (operands rounded to bf16, the identity over the extended
  reals; accumulation into zeros), fuses each layer's bias and clamp onto the next layer's transform, takes each bias as a
  [1, n] row, and runs the classifier and the log-softmax in one block; the reference applies whole-array dot_generals,
  broadcast biases, and jax's log_softmax (whose second maximum with −∞ changes nothing). Every dense step is row-local, so
  each region's output array is the reference's stage of the arrays the region was entered with, and the kernel's result
  buffer ends at the reference's result stage of the arguments. No algebraic law beyond the matrix product as a sum is
  used, and finiteness of the inputs is not needed.

  The frames of the kernel's two programs are the generated ones; the reference's frame is its run with the result
  dropped; the idealization rewrote nothing, so `preserves` is `True`.
-/
import proofs.«138659_j53807350284438_1_alg».proof.Defs
import proofs.«138659_j53807350284438_1_alg».proof.Proof.Gen.Kernel
import proofs.«138659_j53807350284438_1_alg».proof.Proof.Gen.Kernel.Skeleton
import proofs.«138659_j53807350284438_1_alg».proof.Proof.Gen.Kernel.Launch
import proofs.«138659_j53807350284438_1_alg».proof.Proof.Gen.Kernel.Points
import proofs.«138659_j53807350284438_1_alg».proof.Proof.Gen.Kernel.Frame
import proofs.«138659_j53807350284438_1_alg».proof.Proof.Gen.KernelIdeal
import proofs.«138659_j53807350284438_1_alg».proof.Proof.Gen.KernelIdeal.Skeleton
import proofs.«138659_j53807350284438_1_alg».proof.Proof.Gen.KernelIdeal.Launch
import proofs.«138659_j53807350284438_1_alg».proof.Proof.Gen.KernelIdeal.Points
import proofs.«138659_j53807350284438_1_alg».proof.Proof.Gen.KernelIdeal.Frame
import proofs.«138659_j53807350284438_1_alg».proof.Proof.Gen.ReferenceIdeal
import proofs.«138659_j53807350284438_1_alg».proof.Proof.Gen.Pre_finite_inputs
import proofs.«138659_j53807350284438_1_alg».proof.Proof.KernelRun
import proofs.«138659_j53807350284438_1_alg».proof.Proof.ChainC
import proofs.«138659_j53807350284438_1_alg».proof.Proof.RunP
import proofs.«138659_j53807350284438_1_alg».proof.Proof.ReadP
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the generated frame. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- From memories agreeing on the arguments both programs end at the reference's result stage of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W12 m ρ c (Proc.devRef .tc Cert.KernelIdeal.main_v91),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v106_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.KernelIdeal.ChainC.out_at12 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
